-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S128x1 .f32) (main_arg13 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x1 : Shape := ⟨2, ![1, 1]⟩
abbrev S600000x128 : Shape := ⟨2, ![600000, 128]⟩
abbrev S50000x1 : Shape := ⟨2, ![50000, 1]⟩
abbrev S5000x128 : Shape := ⟨2, ![5000, 128]⟩
abbrev S1x128 : Shape := ⟨2, ![1, 128]⟩
abbrev S500x128 : Shape := ⟨2, ![500, 128]⟩
abbrev S500 : Shape := ⟨1, ![500]⟩
abbrev S500x1 : Shape := ⟨2, ![500, 1]⟩

abbrev nBuf : Space → Nat
  | .hbm => 159
  | .vmem => 27
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x1, .f32⟩
  | 13 => ⟨S1, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S1, .i32⟩
  | 27 => ⟨S_, .i32⟩
  | 28 => ⟨S600000x1, .i32⟩
  | 29 => ⟨S600000x1, .i1⟩
  | 30 => ⟨S1x1, .i32⟩
  | 31 => ⟨S600000x1, .i32⟩
  | 32 => ⟨S600000x1, .i1⟩
  | 33 => ⟨S600000x1, .i1⟩
  | 34 => ⟨S_, .i1⟩
  | 35 => ⟨S600000, .i1⟩
  | 36 => ⟨S600000x128, .f32⟩
  | 37 => ⟨S600000x128, .i1⟩
  | 38 => ⟨S_, .f32⟩
  | 39 => ⟨S600000x128, .f32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S_, .f32⟩
  | 46 => ⟨S600000, .f32⟩
  | 47 => ⟨S_, .f32⟩
  | 48 => ⟨S50000, .f32⟩
  | 49 => ⟨S600000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S1, .i32⟩
  | 67 => ⟨S_, .i32⟩
  | 68 => ⟨S600000x1, .i32⟩
  | 69 => ⟨S600000x1, .i1⟩
  | 70 => ⟨S1x1, .i32⟩
  | 71 => ⟨S600000x1, .i32⟩
  | 72 => ⟨S600000x1, .i1⟩
  | 73 => ⟨S600000x1, .i1⟩
  | 74 => ⟨S_, .i1⟩
  | 75 => ⟨S600000, .i1⟩
  | 76 => ⟨S600000x128, .f32⟩
  | 77 => ⟨S600000x128, .i1⟩
  | 78 => ⟨S_, .f32⟩
  | 79 => ⟨S600000x128, .f32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S_, .f32⟩
  | 86 => ⟨S600000, .f32⟩
  | 87 => ⟨S_, .f32⟩
  | 88 => ⟨S50000, .f32⟩
  | 89 => ⟨S600000x1, .i32⟩
  | 90 => ⟨S50000, .f32⟩
  | 91 => ⟨S_, .f32⟩
  | 92 => ⟨S50000, .f32⟩
  | 93 => ⟨S50000, .f32⟩
  | 94 => ⟨S50000x1, .f32⟩
  | 95 => ⟨S50000x128, .f32⟩
  | 96 => ⟨S50000x128, .f32⟩
  | 97 => ⟨S50000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S1, .i32⟩
  | 107 => ⟨S_, .i32⟩
  | 108 => ⟨S600000x1, .i32⟩
  | 109 => ⟨S600000x1, .i1⟩
  | 110 => ⟨S1x1, .i32⟩
  | 111 => ⟨S600000x1, .i32⟩
  | 112 => ⟨S600000x1, .i1⟩
  | 113 => ⟨S600000x1, .i1⟩
  | 114 => ⟨S_, .i1⟩
  | 115 => ⟨S600000, .i1⟩
  | 116 => ⟨S600000x128, .f32⟩
  | 117 => ⟨S600000x128, .i1⟩
  | 118 => ⟨S_, .f32⟩
  | 119 => ⟨S600000x128, .f32⟩
  | 120 => ⟨S600000x128, .f32⟩
  | 121 => ⟨S_, .f32⟩
  | 122 => ⟨S50000x128, .f32⟩
  | 123 => ⟨S600000x1, .i32⟩
  | 124 => ⟨S50000x128, .f32⟩
  | 125 => ⟨S_, .f32⟩
  | 126 => ⟨S600000, .f32⟩
  | 127 => ⟨S_, .f32⟩
  | _ => ⟨S50000x128, .f32⟩

abbrev hbmTy0_1 (i : Nat) : BufTy := match i % 128 with
  | 0 => ⟨S50000, .f32⟩
  | 1 => ⟨S600000x1, .i32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x128, .f32⟩
  | 8 => ⟨S50000x128, .f32⟩
  | 9 => ⟨S50000x128, .f32⟩
  | 10 => ⟨S_, .f32⟩
  | 11 => ⟨S500x128, .f32⟩
  | 12 => ⟨S50000x1, .i32⟩
  | 13 => ⟨S500x128, .f32⟩
  | 14 => ⟨S_, .f32⟩
  | 15 => ⟨S50000, .f32⟩
  | 16 => ⟨S_, .f32⟩
  | 17 => ⟨S500, .f32⟩
  | 18 => ⟨S50000x1, .i32⟩
  | 19 => ⟨S500, .f32⟩
  | 20 => ⟨S_, .f32⟩
  | 21 => ⟨S500, .f32⟩
  | 22 => ⟨S500, .f32⟩
  | 23 => ⟨S500x1, .f32⟩
  | 24 => ⟨S500x128, .f32⟩
  | 25 => ⟨S500x128, .f32⟩
  | 26 => ⟨S500x1, .f32⟩
  | 27 => ⟨S1x1, .f32⟩
  | 28 => ⟨S500x1, .f32⟩
  | 29 => ⟨S500x1, .f32⟩
  | 30 => ⟨S500, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_0 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_2 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v18 : Ref sig .tc := ⟨.hbm, 80, rfl⟩
abbrev main_cst_3 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_cst_4 : Ref sig .tc := ⟨.hbm, 85, rfl⟩
abbrev main_v22 : Ref sig .tc := ⟨.hbm, 86, rfl⟩
abbrev main_cst_5 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_cst_6 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v32 : Ref sig .tc := ⟨.hbm, 120, rfl⟩
abbrev main_cst_7 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_cst_8 : Ref sig .tc := ⟨.hbm, 125, rfl⟩
abbrev main_v36 : Ref sig .tc := ⟨.hbm, 126, rfl⟩
abbrev main_cst_9 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_cst_10 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_cst_11 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_cst_12 : Ref sig .tc := ⟨.hbm, 142, rfl⟩
abbrev main_v49 : Ref sig .tc := ⟨.hbm, 143, rfl⟩
abbrev main_cst_13 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_cst_14 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S500x128 : S_.BroadcastsInDim S500x128 (![] : Fin 0 → Fin S500x128.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S1x1_S500x1_0_1 : S1x1.BroadcastsInDim S500x1 (![0, 1] : Fin 2 → Fin S500x1.rank)
  shapeCasts_S500x1_S500 : S500x1.ShapeCasts S500
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1
  dot_S500x128_S128x1_S500x1_1_0_0_1_n_n_wf : DotDims.WF S500x128 S128x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x128_S128x1_S500x1_1_0_0_1_n_n : DotDims S500x128 S128x1 S500x1 where
  lhsContracting := [1]
  rhsContracting := [0]
  lhsNonContracting := [0]
  rhsNonContracting := [1]
  lhsBatch := []
  rhsBatch := []
  wf := dot_S500x128_S128x1_S500x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x1 : Shape := ⟨2, ![1, 1]⟩
abbrev S600000x128 : Shape := ⟨2, ![600000, 128]⟩
abbrev S50000x1 : Shape := ⟨2, ![50000, 1]⟩
abbrev S1x128 : Shape := ⟨2, ![1, 128]⟩
abbrev S500x128 : Shape := ⟨2, ![500, 128]⟩
abbrev S500x1 : Shape := ⟨2, ![500, 1]⟩
abbrev S500 : Shape := ⟨1, ![500]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x1, .f32⟩
  | 13 => ⟨S1, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S1, .i32⟩
  | 27 => ⟨S_, .i32⟩
  | 28 => ⟨S600000x1, .i32⟩
  | 29 => ⟨S600000x1, .i1⟩
  | 30 => ⟨S1x1, .i32⟩
  | 31 => ⟨S600000x1, .i32⟩
  | 32 => ⟨S600000x1, .i1⟩
  | 33 => ⟨S600000x1, .i1⟩
  | 34 => ⟨S_, .i1⟩
  | 35 => ⟨S600000, .i1⟩
  | 36 => ⟨S600000x128, .f32⟩
  | 37 => ⟨S600000x128, .i1⟩
  | 38 => ⟨S_, .f32⟩
  | 39 => ⟨S600000x128, .f32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S_, .f32⟩
  | 46 => ⟨S600000x1, .f32⟩
  | 47 => ⟨S_, .f32⟩
  | 48 => ⟨S50000x1, .f32⟩
  | 49 => ⟨S600000x1, .i32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S1, .i32⟩
  | 74 => ⟨S_, .i32⟩
  | 75 => ⟨S600000x1, .i32⟩
  | 76 => ⟨S600000x1, .i1⟩
  | 77 => ⟨S1x1, .i32⟩
  | 78 => ⟨S600000x1, .i32⟩
  | 79 => ⟨S600000x1, .i1⟩
  | 80 => ⟨S600000x1, .i1⟩
  | 81 => ⟨S_, .i1⟩
  | 82 => ⟨S600000, .i1⟩
  | 83 => ⟨S600000x128, .f32⟩
  | 84 => ⟨S600000x128, .i1⟩
  | 85 => ⟨S_, .f32⟩
  | 86 => ⟨S600000x128, .f32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S_, .f32⟩
  | 93 => ⟨S600000x1, .f32⟩
  | 94 => ⟨S_, .f32⟩
  | 95 => ⟨S50000x1, .f32⟩
  | 96 => ⟨S600000x1, .i32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S1, .i32⟩
  | 121 => ⟨S_, .i32⟩
  | 122 => ⟨S600000x1, .i32⟩
  | 123 => ⟨S600000x1, .i1⟩
  | 124 => ⟨S1x1, .i32⟩
  | 125 => ⟨S600000x1, .i32⟩
  | 126 => ⟨S600000x1, .i1⟩
  | 127 => ⟨S600000x1, .i1⟩
  | _ => ⟨S50000x128, .f32⟩

abbrev hbmTy0_1 (i : Nat) : BufTy := match i % 128 with
  | 0 => ⟨S_, .i1⟩
  | 1 => ⟨S600000, .i1⟩
  | 2 => ⟨S600000x128, .f32⟩
  | 3 => ⟨S600000x128, .i1⟩
  | 4 => ⟨S_, .f32⟩
  | 5 => ⟨S600000x128, .f32⟩
  | 6 => ⟨S600000x128, .f32⟩
  | 7 => ⟨S_, .f32⟩
  | 8 => ⟨S50000x128, .f32⟩
  | 9 => ⟨S600000x1, .i32⟩
  | 10 => ⟨S50000x128, .f32⟩
  | 11 => ⟨S_, .f32⟩
  | 12 => ⟨S600000x1, .f32⟩
  | 13 => ⟨S_, .f32⟩
  | 14 => ⟨S50000x1, .f32⟩
  | 15 => ⟨S600000x1, .i32⟩
  | 16 => ⟨S50000x1, .f32⟩
  | 17 => ⟨S_, .f32⟩
  | 18 => ⟨S50000x1, .f32⟩
  | 19 => ⟨S50000x1, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S_, .f32⟩
  | 32 => ⟨S500x128, .f32⟩
  | 33 => ⟨S50000x1, .i32⟩
  | 34 => ⟨S500x128, .f32⟩
  | 35 => ⟨S_, .f32⟩
  | 36 => ⟨S50000x1, .f32⟩
  | 37 => ⟨S_, .f32⟩
  | 38 => ⟨S500x1, .f32⟩
  | 39 => ⟨S50000x1, .i32⟩
  | 40 => ⟨S500x1, .f32⟩
  | 41 => ⟨S_, .f32⟩
  | 42 => ⟨S500x1, .f32⟩
  | 43 => ⟨S500x1, .f32⟩
  | 44 => ⟨S500x128, .f32⟩
  | 45 => ⟨S500x128, .f32⟩
  | 46 => ⟨S500x1, .f32⟩
  | 47 => ⟨S1x1, .f32⟩
  | 48 => ⟨S500x1, .f32⟩
  | 49 => ⟨S500x1, .f32⟩
  | 50 => ⟨S500, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_0 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_2 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_call1_cst : Ref sig .tc := ⟨.hbm, 62, rfl⟩
abbrev main_call1_v0 : Ref sig .tc := ⟨.hbm, 63, rfl⟩
abbrev main_v22 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v23 : Ref sig .tc := ⟨.hbm, 87, rfl⟩
abbrev main_cst_3 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_4 : Ref sig .tc := ⟨.hbm, 92, rfl⟩
abbrev main_v27 : Ref sig .tc := ⟨.hbm, 93, rfl⟩
abbrev main_cst_5 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_cst_6 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_call3_cst : Ref sig .tc := ⟨.hbm, 109, rfl⟩
abbrev main_call3_v0 : Ref sig .tc := ⟨.hbm, 110, rfl⟩
abbrev main_v41 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_call4_cst : Ref sig .tc := ⟨.hbm, 132, rfl⟩
abbrev main_call4_v15 : Ref sig .tc := ⟨.hbm, 133, rfl⟩
abbrev main_v42 : Ref sig .tc := ⟨.hbm, 134, rfl⟩
abbrev main_cst_7 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_cst_8 : Ref sig .tc := ⟨.hbm, 139, rfl⟩
abbrev main_v46 : Ref sig .tc := ⟨.hbm, 140, rfl⟩
abbrev main_cst_9 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_cst_10 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_call5_cst : Ref sig .tc := ⟨.hbm, 156, rfl⟩
abbrev main_call5_v0 : Ref sig .tc := ⟨.hbm, 157, rfl⟩
abbrev main_v60 : Ref sig .tc := ⟨.hbm, 158, rfl⟩
abbrev main_cst_11 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_cst_12 : Ref sig .tc := ⟨.hbm, 163, rfl⟩
abbrev main_v64 : Ref sig .tc := ⟨.hbm, 164, rfl⟩
abbrev main_cst_13 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_cst_14 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500x1 : S_.BroadcastsInDim S500x1 (![] : Fin 0 → Fin S500x1.rank)
  bcast_S500x1_S500x128_0_1 : S500x1.BroadcastsInDim S500x128 (![0, 1] : Fin 2 → Fin S500x128.rank)
  bcast_S1x1_S500x1_0_1 : S1x1.BroadcastsInDim S500x1 (![0, 1] : Fin 2 → Fin S500x1.rank)
  shapeCasts_S500x1_S500 : S500x1.ShapeCasts S500
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  scatter_S500x1_S50000x1_S50000x1_1_0_0_1_wf : ScatterDims.WF S500x1 S50000x1 S50000x1 [1] [0] [0] 1
  dot_S500x128_S128x1_S500x1_1_0_0_1_n_n_wf : DotDims.WF S500x128 S128x1 S500x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x128_S128x1_S500x1_1_0_0_1_n_n : DotDims S500x128 S128x1 S500x1 where
  lhsContracting := [1]
  rhsContracting := [0]
  lhsNonContracting := [0]
  rhsNonContracting := [1]
  lhsBatch := []
  rhsBatch := []
  wf := dot_S500x128_S128x1_S500x1_1_0_0_1_n_n_wf

class Facts : Prop extends Facts₀ where

variable [Facts]
-- ==== Proof.KerRun.lean ====
/-
  The kernel program's run with its result named: every weakly fair execution of the program terminates without a
  fault, the result buffer ends at what the fold of the program's segments (host stretches and the three layer kernels)
  leaves in it, and the fourteen argument arrays end as they were launched. The run is the same launch over the
  same segments as the frame's; only the final reading keeps the result buffer beside the arguments.
-/
import proofs.«115632_j11665131176188_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_named : θ_run defs (onTc (τ := τ) (main (F := F))) ⟨m, fun _ => 0, ρ⟩ (fun r => ∀ c : Dev nD,
      r.2.mem ((c.tc : Thread nD τ).loc main_v62) = W11 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v62 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)

end Cert.KernelIdeal.Hand

end
-- ==== Proof.KerTerm.lean ====
/-
  The kernel program's host operations around its three layer kernels, as named functions of their operands: the
  rows of the edge list, the gather of the source rows, the sum over each node's in-edges, the in-degree divisor, the
  sum over each graph's nodes, the graph-size divisor, and the linear head. Every function is the composition of the
  program's own operations in the order it applies them; nothing is computed here.
-/
import proofs.«115632_j11665131176188_1_alg».proof.Proof.Gen.KernelIdeal

noncomputable section

namespace Cert.KernelIdeal.Hand

open Cert.KernelIdeal Cert.KernelIdeal.Facts₀ Idealize.ShloMosaic

variable {F : FTy → Type} [FloatOps F]

/-- The sources' row of the edge list, as a vector. -/
def srcOf (ei : IVec S2x600000 32) : IVec S600000 32 :=
  fun i => shapeCast S600000 (extractStridedSlice S1x600000 ![0, 0] ei slices_S2x600000_S1x600000_0_0) shapeCasts_S1x600000_S600000 i

/-- The destinations' row of the edge list, as a vector. -/
def dstOf (ei : IVec S2x600000 32) : IVec S600000 32 :=
  fun i => shapeCast S600000 (extractStridedSlice S1x600000 ![1, 0] ei slices_S2x600000_S1x600000_1_0) shapeCasts_S1x600000_S600000 i

/-- Row `src e` of `x` for every edge `e` (a negative index counted from the end; a row outside the array read as the
    fill value). -/
def takeV (x : FVec F S50000x128 .f32) (src : IVec S600000 32) : FVec F S600000x128 .f32 :=
  have v0 : IVec S600000 32 := broadcastInDim S600000 ![] bcast_S_S600000 (constantI S_ 32 0#32)
  have v1 : IVec S600000 1 := cmpi .slt src v0
  have v2 : IVec S600000 32 := broadcastInDim S600000 ![] bcast_S_S600000 (constantI S_ 32 50000#32)
  have v3 : IVec S600000 32 := addi src v2
  have v4 : IVec S600000 32 := select v1 v3 src
  have v5 : IVec S600000x1 32 := broadcastInDim S600000x1 ![0] bcast_S600000_S600000x1_0 v4
  have v6 : IVec S600000x1 32 := broadcastInDim S600000x1 ![] bcast_S_S600000x1 (constantI S_ 32 0#32)
  have v7 : IVec S600000x1 1 := cmpi .sge v5 v6
  have v8 : IVec S1x1 32 := broadcastInDim S1x1 ![1] bcast_S1_S1x1_1 (constantI S1 32 49999#32)
  have v9 : IVec S600000x1 32 := broadcastInDim S600000x1 ![0, 1] bcast_S1x1_S600000x1_0_1 v8
  have v10 : IVec S600000x1 1 := cmpi .sle v5 v9
  have v11 : IVec S600000x1 1 := andi v7 v10
  have v12 : IVec S600000 1 := Host.reduce IntOp.andi v11 (constantI S_ 1 1#1) reducesTo_S600000x1_S600000_d1 h_S_
  have v13 : FVec F S600000x128 .f32 := Host.gather gather_S50000x128_S600000x1_S600000x128_1_0_n_n_0_1_1128 x v5
  have v14 : IVec S600000x128 1 := broadcastInDim S600000x128 ![0] bcast_S600000_S600000x128_0 v12
  have v15 : FVec F S600000x128 .f32 := broadcastInDim S600000x128 ![] bcast_S_S600000x128 (constant S_ .f32 0x7FC00000#32)
  select v14 v13 v15

/-- For every node the sum of the rows `takeV x src` of the edges that end at it. -/
def aggSum (x : FVec F S50000x128 .f32) (src dst : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) (takeV x src)

/-- For every graph the sum of the rows of `x` of the nodes in it. -/
def poolSum (x : FVec F S50000x128 .f32) (batch : IVec S50000 32) : FVec F S500x128 .f32 :=
  Host.scatterAdd scatter_S500x128_S50000x1_S50000x128_1_0_0_1
    (broadcastInDim S500x128 ![] bcast_S_S500x128 (constant S_ .f32 0x00000000#32))
    (broadcastInDim S50000x1 ![0] bcast_S50000_S50000x1_0 batch) x

/-- The linear head: the pooled features through the output weights, plus the output bias, as a vector over the graphs. -/
def headOf (g : FVec F S500x128 .f32) (Wout : FVec F S128x1 .f32) (bout : FVec F S1 .f32) : FVec F S500 .f32 :=
  fun i => shapeCast S500 (addf (Host.dotGeneral dot_S500x128_S128x1_S500x1_1_0_0_1_n_n none g Wout)
    (broadcastInDim S500x1 ![0, 1] bcast_S1x1_S500x1_0_1 (broadcastInDim S1x1 ![1] bcast_S1_S1x1_1 bout))) shapeCasts_S500x1_S500 i

/-- The divisor of the node mean: the number of edges ending at each node, at least one, spread along the features. -/
def denNodes (dst : IVec S600000 32) : FVec F S50000x128 .f32 :=
  broadcastInDim S50000x128 ![0, 1] bcast_S50000x1_S50000x128_0_1 (broadcastInDim S50000x1 ![0] bcast_S50000_S50000x1_0
    (maximumf (Host.scatterAdd scatter_S50000_S600000x1_S600000_n_0_0_1
        (broadcastInDim S50000 ![] bcast_S_S50000 (constant S_ .f32 0x00000000#32))
        (broadcastInDim S600000x1 ![0] bcast_S600000_S600000x1_0 dst)
        (broadcastInDim S600000 ![] bcast_S_S600000 (constant S_ .f32 0x3F800000#32)))
      (broadcastInDim S50000 ![] bcast_S_S50000 (constant S_ .f32 0x3F800000#32))))

/-- The divisor of the graph mean: the number of nodes of each graph, at least one, spread along the features. -/
def denGraphs (batch : IVec S50000 32) : FVec F S500x128 .f32 :=
  broadcastInDim S500x128 ![0, 1] bcast_S500x1_S500x128_0_1 (broadcastInDim S500x1 ![0] bcast_S500_S500x1_0
    (maximumf (Host.scatterAdd scatter_S500_S50000x1_S50000_n_0_0_1
        (broadcastInDim S500 ![] bcast_S_S500 (constant S_ .f32 0x00000000#32))
        (broadcastInDim S50000x1 ![0] bcast_S50000_S50000x1_0 batch)
        (broadcastInDim S50000 ![] bcast_S_S50000 (constant S_ .f32 0x3F800000#32)))
      (broadcastInDim S500 ![] bcast_S_S500 (constant S_ .f32 0x3F800000#32))))

/-- The mean over each node's in-edges of the gathered rows. -/
def aggMean (x : FVec F S50000x128 .f32) (src dst : IVec S600000 32) : FVec F S50000x128 .f32 :=
  Host.divf (aggSum x src dst) (denNodes dst)

/-- The network's output from the last layer's features: the graph means through the linear head. -/
def outOf (x : FVec F S50000x128 .f32) (batch : IVec S50000 32) (Wout : FVec F S128x1 .f32) (bout : FVec F S1 .f32) : FVec F S500 .f32 :=
  headOf (Host.divf (poolSum x batch) (denGraphs batch)) Wout bout

end Cert.KernelIdeal.Hand

end
-- ==== Proof.KerRead.lean ====
/-
  Reading the kernel program's host stretches: what each stretch leaves in the buffer the next layer kernel (or the
  caller) reads, as the named functions of KerTerm.lean of the buffers it starts from. Each equation is the stretch's
  operations composed in order; the gather, the accumulating scatters, the reduction and the matrix product are never
  opened.
-/
import proofs.«115632_j11665131176188_1_alg».proof.Proof.Gen.KernelIdeal.Launch
import proofs.«115632_j11665131176188_1_alg».proof.Proof.KerTerm
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-- The first stretch cuts the edge list into its two rows. -/
theorem rows_read_src (V : Valuation τ sig (Elt F)) :
    after hostOps0 V (Proc.devRef .tc main_v1) = srcOf (V (Proc.devRef .tc main_arg1)) := by
  unfold srcOf
  after_results_simp
  rfl

theorem rows_read_dst (V : Valuation τ sig (Elt F)) :
    after hostOps0 V (Proc.devRef .tc main_v3) = dstOf (V (Proc.devRef .tc main_arg1)) := by
  unfold dstOf
  after_results_simp
  rfl

attribute [local irreducible] Host.reduce Host.gather Host.scatterAdd in
/-- Layer 0's aggregate: the gather stretch and the scatter stretch leave the in-edge mean of the input rows. -/
theorem agg_read0 (V : Valuation τ sig (Elt F)) :
    after hostOps0_2 (after hostOps0_1 V) (Proc.devRef .tc main_v16)
      = aggMean (V (Proc.devRef .tc main_arg0)) (V (Proc.devRef .tc main_v1)) (V (Proc.devRef .tc main_v3)) := by
  unfold aggMean aggSum denNodes takeV
  after_results_simp
  rfl

attribute [local irreducible] Host.reduce Host.gather Host.scatterAdd in
/-- Layer 1's aggregate: the in-edge mean of layer 0's output rows. -/
theorem agg_read1 (V : Valuation τ sig (Elt F)) :
    after hostOps1_1 (after hostOps1 V) (Proc.devRef .tc main_v30)
      = aggMean (V (Proc.devRef .tc main_v17)) (V (Proc.devRef .tc main_v1)) (V (Proc.devRef .tc main_v3)) := by
  unfold aggMean aggSum denNodes takeV
  after_results_simp
  rfl

attribute [local irreducible] Host.reduce Host.gather Host.scatterAdd in
/-- Layer 2's aggregate: the in-edge mean of layer 1's output rows. -/
theorem agg_read2 (V : Valuation τ sig (Elt F)) :
    after hostOps2_1 (after hostOps2 V) (Proc.devRef .tc main_v44)
      = aggMean (V (Proc.devRef .tc main_v31)) (V (Proc.devRef .tc main_v1)) (V (Proc.devRef .tc main_v3)) := by
  unfold aggMean aggSum denNodes takeV
  after_results_simp
  rfl

attribute [local irreducible] Host.scatterAdd in
/-- The last stretch: the graph means of layer 2's output rows through the linear head. -/
theorem out_read (V : Valuation τ sig (Elt F)) :
    after hostOps3 V (Proc.devRef .tc main_v62)
      = outOf (V (Proc.devRef .tc main_v45)) (V (Proc.devRef .tc main_arg2)) (V (Proc.devRef .tc main_arg12)) (V (Proc.devRef .tc main_arg13)) := by
  unfold outOf headOf poolSum denGraphs
  after_results_simp
  rfl

end Cert.KernelIdeal.Hand

end
-- ==== Proof.KerKeep.lean ====
/-
  Which buffers a host stretch of the kernel program leaves alone: a buffer none of the stretch's operations writes
  holds after the stretch what it held before it.
-/
import proofs.«115632_j11665131176188_1_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-! The first stretch (the edge list's rows) writes no argument. -/
theorem keep0_main_arg0 (V : Valuation τ sig (Elt F)) : after hostOps0 V (Proc.devRef .tc main_arg0) = V (Proc.devRef .tc main_arg0) := by after_results_simp
theorem keep0_main_arg2 (V : Valuation τ sig (Elt F)) : after hostOps0 V (Proc.devRef .tc main_arg2) = V (Proc.devRef .tc main_arg2) := by after_results_simp
theorem keep0_main_arg3 (V : Valuation τ sig (Elt F)) : after hostOps0 V (Proc.devRef .tc main_arg3) = V (Proc.devRef .tc main_arg3) := by after_results_simp
theorem keep0_main_arg4 (V : Valuation τ sig (Elt F)) : after hostOps0 V (Proc.devRef .tc main_arg4) = V (Proc.devRef .tc main_arg4) := by after_results_simp
theorem keep0_main_arg5 (V : Valuation τ sig (Elt F)) : after hostOps0 V (Proc.devRef .tc main_arg5) = V (Proc.devRef .tc main_arg5) := by after_results_simp
theorem keep0_main_arg6 (V : Valuation τ sig (Elt F)) : after hostOps0 V (Proc.devRef .tc main_arg6) = V (Proc.devRef .tc main_arg6) := by after_results_simp
theorem keep0_main_arg7 (V : Valuation τ sig (Elt F)) : after hostOps0 V (Proc.devRef .tc main_arg7) = V (Proc.devRef .tc main_arg7) := by after_results_simp
theorem keep0_main_arg8 (V : Valuation τ sig (Elt F)) : after hostOps0 V (Proc.devRef .tc main_arg8) = V (Proc.devRef .tc main_arg8) := by after_results_simp
theorem keep0_main_arg9 (V : Valuation τ sig (Elt F)) : after hostOps0 V (Proc.devRef .tc main_arg9) = V (Proc.devRef .tc main_arg9) := by after_results_simp
theorem keep0_main_arg10 (V : Valuation τ sig (Elt F)) : after hostOps0 V (Proc.devRef .tc main_arg10) = V (Proc.devRef .tc main_arg10) := by after_results_simp
theorem keep0_main_arg11 (V : Valuation τ sig (Elt F)) : after hostOps0 V (Proc.devRef .tc main_arg11) = V (Proc.devRef .tc main_arg11) := by after_results_simp
theorem keep0_main_arg12 (V : Valuation τ sig (Elt F)) : after hostOps0 V (Proc.devRef .tc main_arg12) = V (Proc.devRef .tc main_arg12) := by after_results_simp
theorem keep0_main_arg13 (V : Valuation τ sig (Elt F)) : after hostOps0 V (Proc.devRef .tc main_arg13) = V (Proc.devRef .tc main_arg13) := by after_results_simp

/-! Layer 0's gather and scatter stretches write neither the edge rows nor an argument. -/
theorem keepA_main_v1 (V : Valuation τ sig (Elt F)) : after hostOps0_2 (after hostOps0_1 V) (Proc.devRef .tc main_v1) = V (Proc.devRef .tc main_v1) := by after_results_simp
theorem keepA_main_v3 (V : Valuation τ sig (Elt F)) : after hostOps0_2 (after hostOps0_1 V) (Proc.devRef .tc main_v3) = V (Proc.devRef .tc main_v3) := by after_results_simp
theorem keepA_main_arg0 (V : Valuation τ sig (Elt F)) : after hostOps0_2 (after hostOps0_1 V) (Proc.devRef .tc main_arg0) = V (Proc.devRef .tc main_arg0) := by after_results_simp
theorem keepA_main_arg2 (V : Valuation τ sig (Elt F)) : after hostOps0_2 (after hostOps0_1 V) (Proc.devRef .tc main_arg2) = V (Proc.devRef .tc main_arg2) := by after_results_simp
theorem keepA_main_arg3 (V : Valuation τ sig (Elt F)) : after hostOps0_2 (after hostOps0_1 V) (Proc.devRef .tc main_arg3) = V (Proc.devRef .tc main_arg3) := by after_results_simp
theorem keepA_main_arg4 (V : Valuation τ sig (Elt F)) : after hostOps0_2 (after hostOps0_1 V) (Proc.devRef .tc main_arg4) = V (Proc.devRef .tc main_arg4) := by after_results_simp
theorem keepA_main_arg5 (V : Valuation τ sig (Elt F)) : after hostOps0_2 (after hostOps0_1 V) (Proc.devRef .tc main_arg5) = V (Proc.devRef .tc main_arg5) := by after_results_simp
theorem keepA_main_arg6 (V : Valuation τ sig (Elt F)) : after hostOps0_2 (after hostOps0_1 V) (Proc.devRef .tc main_arg6) = V (Proc.devRef .tc main_arg6) := by after_results_simp
theorem keepA_main_arg7 (V : Valuation τ sig (Elt F)) : after hostOps0_2 (after hostOps0_1 V) (Proc.devRef .tc main_arg7) = V (Proc.devRef .tc main_arg7) := by after_results_simp
theorem keepA_main_arg8 (V : Valuation τ sig (Elt F)) : after hostOps0_2 (after hostOps0_1 V) (Proc.devRef .tc main_arg8) = V (Proc.devRef .tc main_arg8) := by after_results_simp
theorem keepA_main_arg9 (V : Valuation τ sig (Elt F)) : after hostOps0_2 (after hostOps0_1 V) (Proc.devRef .tc main_arg9) = V (Proc.devRef .tc main_arg9) := by after_results_simp
theorem keepA_main_arg10 (V : Valuation τ sig (Elt F)) : after hostOps0_2 (after hostOps0_1 V) (Proc.devRef .tc main_arg10) = V (Proc.devRef .tc main_arg10) := by after_results_simp
theorem keepA_main_arg11 (V : Valuation τ sig (Elt F)) : after hostOps0_2 (after hostOps0_1 V) (Proc.devRef .tc main_arg11) = V (Proc.devRef .tc main_arg11) := by after_results_simp
theorem keepA_main_arg12 (V : Valuation τ sig (Elt F)) : after hostOps0_2 (after hostOps0_1 V) (Proc.devRef .tc main_arg12) = V (Proc.devRef .tc main_arg12) := by after_results_simp
theorem keepA_main_arg13 (V : Valuation τ sig (Elt F)) : after hostOps0_2 (after hostOps0_1 V) (Proc.devRef .tc main_arg13) = V (Proc.devRef .tc main_arg13) := by after_results_simp

/-! Layer 1's stretches leave layer 0's output, the edge rows and the later arguments alone. -/
theorem keepB_main_v17 (V : Valuation τ sig (Elt F)) : after hostOps1_1 (after hostOps1 V) (Proc.devRef .tc main_v17) = V (Proc.devRef .tc main_v17) := by after_results_simp
theorem keepB_main_v1 (V : Valuation τ sig (Elt F)) : after hostOps1_1 (after hostOps1 V) (Proc.devRef .tc main_v1) = V (Proc.devRef .tc main_v1) := by after_results_simp
theorem keepB_main_v3 (V : Valuation τ sig (Elt F)) : after hostOps1_1 (after hostOps1 V) (Proc.devRef .tc main_v3) = V (Proc.devRef .tc main_v3) := by after_results_simp
theorem keepB_main_arg2 (V : Valuation τ sig (Elt F)) : after hostOps1_1 (after hostOps1 V) (Proc.devRef .tc main_arg2) = V (Proc.devRef .tc main_arg2) := by after_results_simp
theorem keepB_main_arg6 (V : Valuation τ sig (Elt F)) : after hostOps1_1 (after hostOps1 V) (Proc.devRef .tc main_arg6) = V (Proc.devRef .tc main_arg6) := by after_results_simp
theorem keepB_main_arg7 (V : Valuation τ sig (Elt F)) : after hostOps1_1 (after hostOps1 V) (Proc.devRef .tc main_arg7) = V (Proc.devRef .tc main_arg7) := by after_results_simp
theorem keepB_main_arg8 (V : Valuation τ sig (Elt F)) : after hostOps1_1 (after hostOps1 V) (Proc.devRef .tc main_arg8) = V (Proc.devRef .tc main_arg8) := by after_results_simp
theorem keepB_main_arg9 (V : Valuation τ sig (Elt F)) : after hostOps1_1 (after hostOps1 V) (Proc.devRef .tc main_arg9) = V (Proc.devRef .tc main_arg9) := by after_results_simp
theorem keepB_main_arg10 (V : Valuation τ sig (Elt F)) : after hostOps1_1 (after hostOps1 V) (Proc.devRef .tc main_arg10) = V (Proc.devRef .tc main_arg10) := by after_results_simp
theorem keepB_main_arg11 (V : Valuation τ sig (Elt F)) : after hostOps1_1 (after hostOps1 V) (Proc.devRef .tc main_arg11) = V (Proc.devRef .tc main_arg11) := by after_results_simp
theorem keepB_main_arg12 (V : Valuation τ sig (Elt F)) : after hostOps1_1 (after hostOps1 V) (Proc.devRef .tc main_arg12) = V (Proc.devRef .tc main_arg12) := by after_results_simp
theorem keepB_main_arg13 (V : Valuation τ sig (Elt F)) : after hostOps1_1 (after hostOps1 V) (Proc.devRef .tc main_arg13) = V (Proc.devRef .tc main_arg13) := by after_results_simp

/-! Layer 2's stretches leave layer 1's output and the later arguments alone. -/
theorem keepC_main_v31 (V : Valuation τ sig (Elt F)) : after hostOps2_1 (after hostOps2 V) (Proc.devRef .tc main_v31) = V (Proc.devRef .tc main_v31) := by after_results_simp
theorem keepC_main_arg2 (V : Valuation τ sig (Elt F)) : after hostOps2_1 (after hostOps2 V) (Proc.devRef .tc main_arg2) = V (Proc.devRef .tc main_arg2) := by after_results_simp
theorem keepC_main_arg9 (V : Valuation τ sig (Elt F)) : after hostOps2_1 (after hostOps2 V) (Proc.devRef .tc main_arg9) = V (Proc.devRef .tc main_arg9) := by after_results_simp
theorem keepC_main_arg10 (V : Valuation τ sig (Elt F)) : after hostOps2_1 (after hostOps2 V) (Proc.devRef .tc main_arg10) = V (Proc.devRef .tc main_arg10) := by after_results_simp
theorem keepC_main_arg11 (V : Valuation τ sig (Elt F)) : after hostOps2_1 (after hostOps2 V) (Proc.devRef .tc main_arg11) = V (Proc.devRef .tc main_arg11) := by after_results_simp
theorem keepC_main_arg12 (V : Valuation τ sig (Elt F)) : after hostOps2_1 (after hostOps2 V) (Proc.devRef .tc main_arg12) = V (Proc.devRef .tc main_arg12) := by after_results_simp
theorem keepC_main_arg13 (V : Valuation τ sig (Elt F)) : after hostOps2_1 (after hostOps2 V) (Proc.devRef .tc main_arg13) = V (Proc.devRef .tc main_arg13) := by after_results_simp

end Cert.KernelIdeal.Hand

end
-- ==== Proof.Spec.lean ====
/-
  One layer of mean-aggregation message passing, stated index by index on the extended reals.

  For a node r and an output feature j the layer's value is the positive part of
      (sum over k of a r k * Wl k j) + (sum over k of x r k * Wr k j) + bl j,
  where x r is the node's own feature row, a r the mean of its in-neighbours' rows (computed outside the layer),
  Wl and Wr the two weight matrices and bl the bias. Each of the two sums is written from a zero start, as a
  matrix product onto a zero accumulator gives it.
-/
import Idealize.ShloMosaic.PureOps.Ideal
import Idealize.ShloMosaic.Lib.ValueIdx

noncomputable section

namespace Cert.Sage

open Idealize.ShloMosaic Idealize.ShloMosaic.ValueIdx

/-- The layer at node `r` and output feature `j`. -/
def layerAt (x a : FVec Ideal ⟨2, ![50000, 128]⟩ .f32) (Wl : FVec Ideal ⟨2, ![128, 128]⟩ .f32)
    (bl : FVec Ideal ⟨1, ![128]⟩ .f32) (Wr : FVec Ideal ⟨2, ![128, 128]⟩ .f32) (r : Fin 50000) (j : Fin 128) : EReal :=
  max ((((0 : EReal) + ∑ k : Fin 128, a (ix2 r k) * Wl (ix2 k j))
        + ((0 : EReal) + ∑ k : Fin 128, x (ix2 r k) * Wr (ix2 k j))) + bl (ix1 j)) 0

/-- The layer as one function of the whole arrays. -/
def layer (x a : FVec Ideal ⟨2, ![50000, 128]⟩ .f32) (Wl : FVec Ideal ⟨2, ![128, 128]⟩ .f32)
    (bl : FVec Ideal ⟨1, ![128]⟩ .f32) (Wr : FVec Ideal ⟨2, ![128, 128]⟩ .f32) : FVec Ideal ⟨2, ![50000, 128]⟩ .f32 :=
  fun i => layerAt x a Wl bl Wr (i 0) (i 1)

end Cert.Sage

end
-- ==== Proof.KerOut.lean ====
/-
  The kernel program's result as one function of its fourteen arguments, at the extended reals: three times the
  in-edge mean of the current features (host operations) followed by the layer of Spec.lean (what a layer kernel leaves
  in its output array), then the graph means through the linear head.
-/
import proofs.«115632_j11665131176188_1_alg».proof.Proof.KerTerm
import proofs.«115632_j11665131176188_1_alg».proof.Proof.Spec

noncomputable section

namespace Cert.KernelIdeal.Hand

open Cert.KernelIdeal Idealize.ShloMosaic

/-- One round: the layer of the features `x` and of their in-edge mean along the edge list `ei`. -/
def feat (x : FVec Ideal S50000x128 .f32) (ei : IVec S2x600000 32)
    (Wl : FVec Ideal S128x128 .f32) (bl : FVec Ideal S128 .f32) (Wr : FVec Ideal S128x128 .f32) : FVec Ideal S50000x128 .f32 :=
  Cert.Sage.layer x (aggMean x (srcOf ei) (dstOf ei)) Wl bl Wr

/-- The whole kernel program's network as one function of its fourteen arguments. -/
def kerOut (x : FVec Ideal S50000x128 .f32) (ei : IVec S2x600000 32) (batch : IVec S50000 32)
    (Wl0 : FVec Ideal S128x128 .f32) (bl0 : FVec Ideal S128 .f32) (Wr0 : FVec Ideal S128x128 .f32)
    (Wl1 : FVec Ideal S128x128 .f32) (bl1 : FVec Ideal S128 .f32) (Wr1 : FVec Ideal S128x128 .f32)
    (Wl2 : FVec Ideal S128x128 .f32) (bl2 : FVec Ideal S128 .f32) (Wr2 : FVec Ideal S128x128 .f32)
    (Wout : FVec Ideal S128x1 .f32) (bout : FVec Ideal S1 .f32) : FVec Ideal S500 .f32 :=
  outOf (feat (feat (feat x ei Wl0 bl0 Wr0) ei Wl1 bl1 Wr1) ei Wl2 bl2 Wr2) batch Wout bout

end Cert.KernelIdeal.Hand

end
-- ==== Proof.KerPayload.lean ====
/-
  The layer's arithmetic on one block of rows, read entry by entry on the extended reals.

  The body of one grid point takes a block of 5000 node rows x, the matching block of aggregated rows a, the two
  128 x 128 weight matrices Wl and Wr and the bias bl, and stores max (a * Wl + x * Wr + bl, 0). Changes of float
  format are the identity on the extended reals, a matrix product onto the zero accumulator is the plain sum over
  the contracted coordinate, and the bias is one row repeated over the 5000 rows. So the stored block at row p and
  feature q is the positive part of
      (0 + sum over k of a p k * Wl k q) + (0 + sum over k of x p k * Wr k q) + bl q.
-/
import proofs.«115632_j11665131176188_1_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.ValueIdx

/-- The dimension numbers of the body's two products: rows times contraction by contraction times columns. -/
abbrev rowsByCols : DotDims S5000x128 S128x128 S5000x128 := dot_S5000x128_S128x128_S5000x128_1_0_0_1_n_n

/-- A 5000 x 128 block times a 128 x 128 matrix onto the zero accumulator, at row p and column q, is the sum over
    the contracted coordinate k of the products A p k * B k q. -/
theorem product_onto_zero_at {φ₁ φ₂ : FTy} (A : FVec Ideal S5000x128 φ₁) (B : FVec Ideal S128x128 φ₂) (p : Fin 5000) (q : Fin 128) :
    matmul rowsByCols none A B (constant (F := Ideal) S5000x128 .f32 0x00000000#32) (ix2 p q)
      = ∑ k : Fin 128, A (ix2 p k) * B (ix2 k q) := by
  show FloatOps.matmul rowsByCols none A B _ (ix2 p q) = _
  rw [Ideal.matmul_constant_zero_apply, ← Equiv.sum_comp (contrEquiv1 rowsByCols 128 rfl rfl).symm]
  refine Finset.sum_congr rfl fun c _ => ?_
  have c2 := contrEquiv1_symm_val rowsByCols 128 rfl rfl c
  have l2 : rowsByCols.lhsIdx (ix2 p q) ((contrEquiv1 rowsByCols 128 rfl rfl).symm c) = ix2 p c := by
    funext ax; apply Fin.ext
    match ax with
    | ⟨0, _⟩ => simp [DotDims.lhsIdx, rowsByCols, dot_S5000x128_S128x128_S5000x128_1_0_0_1_n_n]; rfl
    | ⟨1, _⟩ => simp [DotDims.lhsIdx, rowsByCols, dot_S5000x128_S128x128_S5000x128_1_0_0_1_n_n]; exact c2
  have r2 : rowsByCols.rhsIdx (ix2 p q) ((contrEquiv1 rowsByCols 128 rfl rfl).symm c) = ix2 c q := by
    funext ax; apply Fin.ext
    match ax with
    | ⟨0, _⟩ => simp [DotDims.rhsIdx, rowsByCols, dot_S5000x128_S128x128_S5000x128_1_0_0_1_n_n]; exact c2
    | ⟨1, _⟩ => simp [DotDims.rhsIdx, rowsByCols, dot_S5000x128_S128x128_S5000x128_1_0_0_1_n_n]; rfl
  rw [l2, r2]

/-- The bias, one row of 128 features, repeated over the 5000 rows of a block: at row p and feature q it is bl q. -/
theorem bias_row_at (bl : FVec Ideal S128 .f32) (p : Fin 5000) (q : Fin 128) :
    broadcastTo S5000x128 (shapeCast S1x128 bl shapeCasts_S128_S1x128) broadcasts_S1x128_S5000x128 (ix2 p q) = bl (ix1 q) := by
  rw [broadcastTo_1b_ab_apply, shapeCast_a_1a_apply]

/-- The first layer's stored block, entry by entry. -/
theorem k0_pay1_at (v0 v2 : Vec Ideal S5000x128 .f32) (v5 v7 : Vec Ideal S128x128 .f32) (v9 : Vec Ideal S128 .f32)
    (p : Fin 5000) (q : Fin 128) :
    k0_pay1 (F := Ideal) v0 v2 v5 v7 v9 (ix2 p q)
      = max ((((0 : EReal) + ∑ k : Fin 128, v2 (ix2 p k) * v5 (ix2 k q))
          + ((0 : EReal) + ∑ k : Fin 128, v0 (ix2 p k) * v7 (ix2 k q))) + v9 (ix1 q)) 0 := by
  unfold k0_pay1
  rw [shapeCast_self]
  rw [maximumf_apply, addf_apply, addf_apply, product_onto_zero_at, product_onto_zero_at, bias_row_at, broadcast_apply,
    zero_add, zero_add]
  show max _ (Ideal.ofBits .f32 0x00000000#32) = _
  rw [Ideal.ofBits_zero_f32]
  rfl

/-- The second layer's stored block, entry by entry: the same arithmetic over other blocks. -/
theorem k1_pay1_at (v0 v3 : Vec Ideal S5000x128 .f32) (v6 v8 : Vec Ideal S128x128 .f32) (v10 : Vec Ideal S128 .f32)
    (p : Fin 5000) (q : Fin 128) :
    k1_pay1 (F := Ideal) v0 v3 v6 v8 v10 (ix2 p q)
      = max ((((0 : EReal) + ∑ k : Fin 128, v3 (ix2 p k) * v6 (ix2 k q))
          + ((0 : EReal) + ∑ k : Fin 128, v0 (ix2 p k) * v8 (ix2 k q))) + v10 (ix1 q)) 0 := by
  unfold k1_pay1
  rw [shapeCast_self, shapeCast_self]
  rw [maximumf_apply, addf_apply, addf_apply, product_onto_zero_at, product_onto_zero_at, bias_row_at, broadcast_apply,
    zero_add, zero_add]
  show max _ (Ideal.ofBits .f32 0x00000000#32) = _
  rw [Ideal.ofBits_zero_f32]
  rfl

/-- The third layer's stored block, entry by entry: the same arithmetic over other blocks. -/
theorem k2_pay1_at (v0 v3 : Vec Ideal S5000x128 .f32) (v6 v8 : Vec Ideal S128x128 .f32) (v10 : Vec Ideal S128 .f32)
    (p : Fin 5000) (q : Fin 128) :
    k2_pay1 (F := Ideal) v0 v3 v6 v8 v10 (ix2 p q)
      = max ((((0 : EReal) + ∑ k : Fin 128, v3 (ix2 p k) * v6 (ix2 k q))
          + ((0 : EReal) + ∑ k : Fin 128, v0 (ix2 p k) * v8 (ix2 k q))) + v10 (ix1 q)) 0 := by
  unfold k2_pay1
  rw [shapeCast_self, shapeCast_self]
  rw [maximumf_apply, addf_apply, addf_apply, product_onto_zero_at, product_onto_zero_at, bias_row_at, broadcast_apply,
    zero_add, zero_add]
  show max _ (Ideal.ofBits .f32 0x00000000#32) = _
  rw [Ideal.ofBits_zero_f32]
  rfl

/-- A body that loads and stores whole staging buffers does so at zero offsets, however the zeros are spelt. -/
theorem zeroOffsets2 : (![0, 0] : Fin 2 → Nat) = fun _ => 0 := funext fun a => by fin_cases a <;> rfl
theorem zeroOffsets1 : (![0] : Fin 1 → Nat) = fun _ => 0 := funext fun a => by fin_cases a <;> rfl

end Cert.KernelIdeal.Hand

end
-- ==== Proof.KerRegion0.lean ====
/-
  One layer's output array is the layer of the arrays it was entered with.

  The grid has 10 points. Point t reads rows 5000 t … 5000 t + 4999 of the node features and of the aggregated
  features, reads the two weight matrices and the bias whole, and writes back rows 5000 t … 5000 t + 4999 of the
  output. A row of the layer depends on the same row of the two feature arrays only, so what point t writes back
  is block t of the layer of the whole arrays; row r lies in the block of point r / 5000, so the ten blocks cover
  the output, which therefore ends holding the layer everywhere.
-/
import proofs.«115632_j11665131176188_1_alg».proof.Proof.Gen.KernelIdeal.Frame
import proofs.«115632_j11665131176188_1_alg».proof.Proof.Spec
import proofs.«115632_j11665131176188_1_alg».proof.Proof.KerPayload
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block index of every window at every point: the three row-blocked windows sit at block (t, 0), the weights
    and the bias at block 0. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One block of the layer from one block of rows: if x0 and x1 hold, at row p, row r of the arrays X and A, and
    x2, x4, x3 hold the weights and the bias, the body's stored value at (p, q) is the layer at (r, q). -/
theorem layerBlock0_at (X A : FVec Ideal S50000x128 .f32) (Wl Wr : FVec Ideal S128x128 .f32) (bl : FVec Ideal S128 .f32)
    (x0 x1 : Vec Ideal S5000x128 .f32) (x2 x4 : Vec Ideal S128x128 .f32) (x3 : Vec Ideal S128 .f32)
    (p : Fin 5000) (q : Fin 128) (r : Fin 50000)
    (h0 : ∀ k : Fin 128, x0 (ix2 p k) = X (ix2 r k)) (h1 : ∀ k : Fin 128, x1 (ix2 p k) = A (ix2 r k))
    (h2 : ∀ k : Fin 128, x2 (ix2 k q) = Wl (ix2 k q)) (h3 : x3 (ix1 q) = bl (ix1 q))
    (h4 : ∀ k : Fin 128, x4 (ix2 k q) = Wr (ix2 k q)) :
    k0_pay1 (F := Ideal) x0 x1 x2 x4 x3 (ix2 p q) = Cert.Sage.layerAt X A Wl bl Wr r q := by
  rw [k0_pay1_at]
  unfold Cert.Sage.layerAt
  simp only [h0, h1, h2, h3, h4]

/-- Window 0's block at point t is rows 5000 t … 5000 t + 4999 of the node features. -/
theorem rows0_0 (c : Dev nD) (t : Fin cfg0.N) (y : S5000x128.Idx) (i : S50000x128.Idx)
    (hi0 : (i 0).val = t.val * 5000 + (y 0).val) (hi1 : (i 1).val = (y 1).val) :
    (iblk0 V c 0 t : Vec Ideal S5000x128 .f32) y = (V c main_arg0 : S50000x128.Idx → EReal) i := by
  obtain ⟨e00, e01, -⟩ := blockIndex0 t
  unfold iblk0
  rw [View.read_apply]
  show (V c main_arg0 : S50000x128.Idx → EReal) (((cfg0.win 0).blk t).view.emb y) = _
  refine congrArg (V c main_arg0 : S50000x128.Idx → EReal) ?_
  funext a; apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- Window 1's block at point t is the same rows of the aggregated features. -/
theorem rows0_1 (c : Dev nD) (t : Fin cfg0.N) (y : S5000x128.Idx) (i : S50000x128.Idx)
    (hi0 : (i 0).val = t.val * 5000 + (y 0).val) (hi1 : (i 1).val = (y 1).val) :
    (iblk0 V c 1 t : Vec Ideal S5000x128 .f32) y = (V c main_v16 : S50000x128.Idx → EReal) i := by
  obtain ⟨-, -, e10, e11, -⟩ := blockIndex0 t
  unfold iblk0
  rw [View.read_apply]
  show (V c main_v16 : S50000x128.Idx → EReal) (((cfg0.win 1).blk t).view.emb y) = _
  refine congrArg (V c main_v16 : S50000x128.Idx → EReal) ?_
  funext a; apply Fin.ext
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- Window 2's block at every point is the whole first weight matrix. -/
theorem whole0_2 (c : Dev nD) (t : Fin cfg0.N) (y : S128x128.Idx) :
    (iblk0 V c 2 t : Vec Ideal S128x128 .f32) y = (V c main_arg3 : S128x128.Idx → EReal) y := by
  obtain ⟨-, -, -, -, e20, e21, -⟩ := blockIndex0 t
  unfold iblk0
  rw [View.read_apply]
  show (V c main_arg3 : S128x128.Idx → EReal) (((cfg0.win 2).blk t).view.emb y) = _
  refine congrArg (V c main_arg3 : S128x128.Idx → EReal) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block at every point is the whole bias. -/
theorem whole0_3 (c : Dev nD) (t : Fin cfg0.N) (y : S128.Idx) :
    (iblk0 V c 3 t : Vec Ideal S128 .f32) y = (V c main_arg4 : S128.Idx → EReal) y := by
  obtain ⟨-, -, -, -, -, -, e30, -⟩ := blockIndex0 t
  unfold iblk0
  rw [View.read_apply]
  show (V c main_arg4 : S128.Idx → EReal) (((cfg0.win 3).blk t).view.emb y) = _
  refine congrArg (V c main_arg4 : S128.Idx → EReal) ?_
  funext a; apply Fin.ext
  match a with
  | ⟨0, _⟩ => show win0_3.index t (0 : Fin 1) * 128 + 1 * (y 0).val = (y 0).val; omega

/-- Window 4's block at every point is the whole second weight matrix. -/
theorem whole0_4 (c : Dev nD) (t : Fin cfg0.N) (y : S128x128.Idx) :
    (iblk0 V c 4 t : Vec Ideal S128x128 .f32) y = (V c main_arg5 : S128x128.Idx → EReal) y := by
  obtain ⟨-, -, -, -, -, -, -, e40, e41, -⟩ := blockIndex0 t
  unfold iblk0
  rw [View.read_apply]
  show (V c main_arg5 : S128x128.Idx → EReal) (((cfg0.win 4).blk t).view.emb y) = _
  refine congrArg (V c main_arg5 : S128x128.Idx → EReal) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- What point t writes back is block t of the layer of the arrays the region was entered with. -/
theorem writtenBack0 (c : Dev nD) (t : Fin cfg0.N) :
    (dat0 (F := Ideal) V c).flushed 5 t = ((cfg0.win 5).blk t).view.read (Elt Ideal)
      (Cert.Sage.layer (V c main_arg0) (V c main_v16) (V c main_arg3) (V c main_arg4) (V c main_arg5)) := by
  show (cfg0.win 5).cut (grid0.coords t) ((dat0 V c).after 5 t) = _
  rw [after0_5]
  unfold out0_5
  rw [View.canon_unit_zero zeroOffsets2]
  simp only [View.ld_unit_zero (S := S5000x128) zeroOffsets2, View.ld_unit_zero (S := S128x128) zeroOffsets2,
    View.ld_unit_zero (S := S128) zeroOffsets1]
  funext j
  have hp : (j 0).val < 5000 := (j 0).isLt
  have hq : (j 1).val < 128 := (j 1).isLt
  have hN : grid0.N = 10 := N_0
  have ht : t.val < grid0.N := t.isLt
  obtain ⟨-, -, -, -, -, -, -, -, -, e50, e51⟩ := blockIndex0 t
  have hj : (win0 5).xinj (grid0.coords t) j = ix2 (⟨(j 0).val, hp⟩ : Fin 5000) (⟨(j 1).val, hq⟩ : Fin 128) :=
    funext fun a => by match a with | ⟨0, _⟩ => rfl | ⟨1, _⟩ => rfl
  have hi : ((cfg0.win 5).blk t).view.emb j
      = ix2 (⟨t.val * 5000 + (j 0).val, by omega⟩ : Fin 50000) (⟨(j 1).val, hq⟩ : Fin 128) :=
    funext fun a => Fin.ext (by
      match a with
      | ⟨0, _⟩ => show win0_5.index t (0 : Fin 2) * 5000 + 1 * (j 0).val = t.val * 5000 + (j 0).val; omega
      | ⟨1, _⟩ => show win0_5.index t (1 : Fin 2) * 128 + 1 * (j 1).val = (j 1).val; omega)
  show k0_pay1 (F := Ideal) (iblk0 V c 0 t) (iblk0 V c 1 t) (iblk0 V c 2 t) (iblk0 V c 4 t) (iblk0 V c 3 t)
        ((win0 5).xinj (grid0.coords t) j)
      = Cert.Sage.layer (V c main_arg0) (V c main_v16) (V c main_arg3) (V c main_arg4) (V c main_arg5) (((cfg0.win 5).blk t).view.emb j)
  rw [hj, hi]
  exact layerBlock0_at (V c main_arg0) (V c main_v16) (V c main_arg3) (V c main_arg5) (V c main_arg4)
    (iblk0 V c 0 t) (iblk0 V c 1 t) (iblk0 V c 2 t) (iblk0 V c 4 t) (iblk0 V c 3 t)
    ⟨(j 0).val, hp⟩ ⟨(j 1).val, hq⟩ ⟨t.val * 5000 + (j 0).val, by omega⟩
    (fun k => rows0_0 V c t _ _ rfl rfl) (fun k => rows0_1 V c t _ _ rfl rfl)
    (fun k => whole0_2 V c t _) (whole0_3 V c t _) (fun k => whole0_4 V c t _)

/-- An index of the output is in point t's block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- Row r of the output lies in the block of point r / 5000, which is written back. -/
theorem covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; omega⟩, rfl⟩
  obtain ⟨-, -, -, -, -, -, -, -, -, e50, e51⟩ := blockIndex0 t
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region is the layer of the arrays the region was entered with. -/
theorem region0 (c : Dev nD) :
    (dat0 (F := Ideal) V c).arrAt 5 cfg0.N
      = Cert.Sage.layer (V c main_arg0) (V c main_v16) (V c main_arg3) (V c main_arg4) (V c main_arg5) :=
  (dat0 (F := Ideal) V c).arrAt_eq_of_cover 5 _ (fun t _ => writtenBack0 V c t) (covered0)

end Cert.KernelIdeal.Hand

end
-- ==== Proof.KerRegion1.lean ====
/-
  One layer's output array is the layer of the arrays it was entered with.

  The grid has 10 points. Point t reads rows 5000 t … 5000 t + 4999 of the node features and of the aggregated
  features, reads the two weight matrices and the bias whole, and writes back rows 5000 t … 5000 t + 4999 of the
  output. A row of the layer depends on the same row of the two feature arrays only, so what point t writes back
  is block t of the layer of the whole arrays; row r lies in the block of point r / 5000, so the ten blocks cover
  the output, which therefore ends holding the layer everywhere.
-/
import proofs.«115632_j11665131176188_1_alg».proof.Proof.Gen.KernelIdeal.Frame
import proofs.«115632_j11665131176188_1_alg».proof.Proof.Spec
import proofs.«115632_j11665131176188_1_alg».proof.Proof.KerPayload
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block index of every window at every point: the three row-blocked windows sit at block (t, 0), the weights
    and the bias at block 0. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One block of the layer from one block of rows: if x0 and x1 hold, at row p, row r of the arrays X and A, and
    x2, x4, x3 hold the weights and the bias, the body's stored value at (p, q) is the layer at (r, q). -/
theorem layerBlock1_at (X A : FVec Ideal S50000x128 .f32) (Wl Wr : FVec Ideal S128x128 .f32) (bl : FVec Ideal S128 .f32)
    (x0 x1 : Vec Ideal S5000x128 .f32) (x2 x4 : Vec Ideal S128x128 .f32) (x3 : Vec Ideal S128 .f32)
    (p : Fin 5000) (q : Fin 128) (r : Fin 50000)
    (h0 : ∀ k : Fin 128, x0 (ix2 p k) = X (ix2 r k)) (h1 : ∀ k : Fin 128, x1 (ix2 p k) = A (ix2 r k))
    (h2 : ∀ k : Fin 128, x2 (ix2 k q) = Wl (ix2 k q)) (h3 : x3 (ix1 q) = bl (ix1 q))
    (h4 : ∀ k : Fin 128, x4 (ix2 k q) = Wr (ix2 k q)) :
    k1_pay1 (F := Ideal) x0 x1 x2 x4 x3 (ix2 p q) = Cert.Sage.layerAt X A Wl bl Wr r q := by
  rw [k1_pay1_at]
  unfold Cert.Sage.layerAt
  simp only [h0, h1, h2, h3, h4]

/-- Window 0's block at point t is rows 5000 t … 5000 t + 4999 of the node features. -/
theorem rows1_0 (c : Dev nD) (t : Fin cfg1.N) (y : S5000x128.Idx) (i : S50000x128.Idx)
    (hi0 : (i 0).val = t.val * 5000 + (y 0).val) (hi1 : (i 1).val = (y 1).val) :
    (iblk1 V c 0 t : Vec Ideal S5000x128 .f32) y = (V c main_v17 : S50000x128.Idx → EReal) i := by
  obtain ⟨e00, e01, -⟩ := blockIndex1 t
  unfold iblk1
  rw [View.read_apply]
  show (V c main_v17 : S50000x128.Idx → EReal) (((cfg1.win 0).blk t).view.emb y) = _
  refine congrArg (V c main_v17 : S50000x128.Idx → EReal) ?_
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Window 1's block at point t is the same rows of the aggregated features. -/
theorem rows1_1 (c : Dev nD) (t : Fin cfg1.N) (y : S5000x128.Idx) (i : S50000x128.Idx)
    (hi0 : (i 0).val = t.val * 5000 + (y 0).val) (hi1 : (i 1).val = (y 1).val) :
    (iblk1 V c 1 t : Vec Ideal S5000x128 .f32) y = (V c main_v30 : S50000x128.Idx → EReal) i := by
  obtain ⟨-, -, e10, e11, -⟩ := blockIndex1 t
  unfold iblk1
  rw [View.read_apply]
  show (V c main_v30 : S50000x128.Idx → EReal) (((cfg1.win 1).blk t).view.emb y) = _
  refine congrArg (V c main_v30 : S50000x128.Idx → EReal) ?_
  funext a; apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- Window 2's block at every point is the whole first weight matrix. -/
theorem whole1_2 (c : Dev nD) (t : Fin cfg1.N) (y : S128x128.Idx) :
    (iblk1 V c 2 t : Vec Ideal S128x128 .f32) y = (V c main_arg6 : S128x128.Idx → EReal) y := by
  obtain ⟨-, -, -, -, e20, e21, -⟩ := blockIndex1 t
  unfold iblk1
  rw [View.read_apply]
  show (V c main_arg6 : S128x128.Idx → EReal) (((cfg1.win 2).blk t).view.emb y) = _
  refine congrArg (V c main_arg6 : S128x128.Idx → EReal) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block at every point is the whole bias. -/
theorem whole1_3 (c : Dev nD) (t : Fin cfg1.N) (y : S128.Idx) :
    (iblk1 V c 3 t : Vec Ideal S128 .f32) y = (V c main_arg7 : S128.Idx → EReal) y := by
  obtain ⟨-, -, -, -, -, -, e30, -⟩ := blockIndex1 t
  unfold iblk1
  rw [View.read_apply]
  show (V c main_arg7 : S128.Idx → EReal) (((cfg1.win 3).blk t).view.emb y) = _
  refine congrArg (V c main_arg7 : S128.Idx → EReal) ?_
  funext a; apply Fin.ext
  match a with
  | ⟨0, _⟩ => show win1_3.index t (0 : Fin 1) * 128 + 1 * (y 0).val = (y 0).val; omega

/-- Window 4's block at every point is the whole second weight matrix. -/
theorem whole1_4 (c : Dev nD) (t : Fin cfg1.N) (y : S128x128.Idx) :
    (iblk1 V c 4 t : Vec Ideal S128x128 .f32) y = (V c main_arg8 : S128x128.Idx → EReal) y := by
  obtain ⟨-, -, -, -, -, -, -, e40, e41, -⟩ := blockIndex1 t
  unfold iblk1
  rw [View.read_apply]
  show (V c main_arg8 : S128x128.Idx → EReal) (((cfg1.win 4).blk t).view.emb y) = _
  refine congrArg (V c main_arg8 : S128x128.Idx → EReal) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- What point t writes back is block t of the layer of the arrays the region was entered with. -/
theorem writtenBack1 (c : Dev nD) (t : Fin cfg1.N) :
    (dat1 (F := Ideal) V c).flushed 5 t = ((cfg1.win 5).blk t).view.read (Elt Ideal)
      (Cert.Sage.layer (V c main_v17) (V c main_v30) (V c main_arg6) (V c main_arg7) (V c main_arg8)) := by
  show (cfg1.win 5).cut (grid1.coords t) ((dat1 V c).after 5 t) = _
  rw [after1_5]
  unfold out1_5
  rw [View.canon_unit_zero zeroOffsets2]
  simp only [View.ld_unit_zero (S := S5000x128) zeroOffsets2, View.ld_unit_zero (S := S128x128) zeroOffsets2,
    View.ld_unit_zero (S := S128) zeroOffsets1]
  funext j
  have hp : (j 0).val < 5000 := (j 0).isLt
  have hq : (j 1).val < 128 := (j 1).isLt
  have hN : grid1.N = 10 := N_1
  have ht : t.val < grid1.N := t.isLt
  obtain ⟨-, -, -, -, -, -, -, -, -, e50, e51⟩ := blockIndex1 t
  have hj : (win1 5).xinj (grid1.coords t) j = ix2 (⟨(j 0).val, hp⟩ : Fin 5000) (⟨(j 1).val, hq⟩ : Fin 128) :=
    funext fun a => by match a with | ⟨0, _⟩ => rfl | ⟨1, _⟩ => rfl
  have hi : ((cfg1.win 5).blk t).view.emb j
      = ix2 (⟨t.val * 5000 + (j 0).val, by omega⟩ : Fin 50000) (⟨(j 1).val, hq⟩ : Fin 128) :=
    funext fun a => Fin.ext (by
      match a with
      | ⟨0, _⟩ => show win1_5.index t (0 : Fin 2) * 5000 + 1 * (j 0).val = t.val * 5000 + (j 0).val; omega
      | ⟨1, _⟩ => show win1_5.index t (1 : Fin 2) * 128 + 1 * (j 1).val = (j 1).val; omega)
  show k1_pay1 (F := Ideal) (iblk1 V c 0 t) (iblk1 V c 1 t) (iblk1 V c 2 t) (iblk1 V c 4 t) (iblk1 V c 3 t)
        ((win1 5).xinj (grid1.coords t) j)
      = Cert.Sage.layer (V c main_v17) (V c main_v30) (V c main_arg6) (V c main_arg7) (V c main_arg8) (((cfg1.win 5).blk t).view.emb j)
  rw [hj, hi]
  exact layerBlock1_at (V c main_v17) (V c main_v30) (V c main_arg6) (V c main_arg8) (V c main_arg7)
    (iblk1 V c 0 t) (iblk1 V c 1 t) (iblk1 V c 2 t) (iblk1 V c 4 t) (iblk1 V c 3 t)
    ⟨(j 0).val, hp⟩ ⟨(j 1).val, hq⟩ ⟨t.val * 5000 + (j 0).val, by omega⟩
    (fun k => rows1_0 V c t _ _ rfl rfl) (fun k => rows1_1 V c t _ _ rfl rfl)
    (fun k => whole1_2 V c t _) (whole1_3 V c t _) (fun k => whole1_4 V c t _)

/-- An index of the output is in point t's block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- Row r of the output lies in the block of point r / 5000, which is written back. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show _ < grid1.N; omega⟩, rfl⟩
  obtain ⟨-, -, -, -, -, -, -, -, -, e50, e51⟩ := blockIndex1 t
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region is the layer of the arrays the region was entered with. -/
theorem region1 (c : Dev nD) :
    (dat1 (F := Ideal) V c).arrAt 5 cfg1.N
      = Cert.Sage.layer (V c main_v17) (V c main_v30) (V c main_arg6) (V c main_arg7) (V c main_arg8) :=
  (dat1 (F := Ideal) V c).arrAt_eq_of_cover 5 _ (fun t _ => writtenBack1 V c t) (covered1)

end Cert.KernelIdeal.Hand

end
-- ==== Proof.KerRegion2.lean ====
/-
  One layer's output array is the layer of the arrays it was entered with.

  The grid has 10 points. Point t reads rows 5000 t … 5000 t + 4999 of the node features and of the aggregated
  features, reads the two weight matrices and the bias whole, and writes back rows 5000 t … 5000 t + 4999 of the
  output. A row of the layer depends on the same row of the two feature arrays only, so what point t writes back
  is block t of the layer of the whole arrays; row r lies in the block of point r / 5000, so the ten blocks cover
  the output, which therefore ends holding the layer everywhere.
-/
import proofs.«115632_j11665131176188_1_alg».proof.Proof.Gen.KernelIdeal.Frame
import proofs.«115632_j11665131176188_1_alg».proof.Proof.Spec
import proofs.«115632_j11665131176188_1_alg».proof.Proof.KerPayload
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block index of every window at every point: the three row-blocked windows sit at block (t, 0), the weights
    and the bias at block 0. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One block of the layer from one block of rows: if x0 and x1 hold, at row p, row r of the arrays X and A, and
    x2, x4, x3 hold the weights and the bias, the body's stored value at (p, q) is the layer at (r, q). -/
theorem layerBlock2_at (X A : FVec Ideal S50000x128 .f32) (Wl Wr : FVec Ideal S128x128 .f32) (bl : FVec Ideal S128 .f32)
    (x0 x1 : Vec Ideal S5000x128 .f32) (x2 x4 : Vec Ideal S128x128 .f32) (x3 : Vec Ideal S128 .f32)
    (p : Fin 5000) (q : Fin 128) (r : Fin 50000)
    (h0 : ∀ k : Fin 128, x0 (ix2 p k) = X (ix2 r k)) (h1 : ∀ k : Fin 128, x1 (ix2 p k) = A (ix2 r k))
    (h2 : ∀ k : Fin 128, x2 (ix2 k q) = Wl (ix2 k q)) (h3 : x3 (ix1 q) = bl (ix1 q))
    (h4 : ∀ k : Fin 128, x4 (ix2 k q) = Wr (ix2 k q)) :
    k2_pay1 (F := Ideal) x0 x1 x2 x4 x3 (ix2 p q) = Cert.Sage.layerAt X A Wl bl Wr r q := by
  rw [k2_pay1_at]
  unfold Cert.Sage.layerAt
  simp only [h0, h1, h2, h3, h4]

/-- Window 0's block at point t is rows 5000 t … 5000 t + 4999 of the node features. -/
theorem rows2_0 (c : Dev nD) (t : Fin cfg2.N) (y : S5000x128.Idx) (i : S50000x128.Idx)
    (hi0 : (i 0).val = t.val * 5000 + (y 0).val) (hi1 : (i 1).val = (y 1).val) :
    (iblk2 V c 0 t : Vec Ideal S5000x128 .f32) y = (V c main_v31 : S50000x128.Idx → EReal) i := by
  obtain ⟨e00, e01, -⟩ := blockIndex2 t
  unfold iblk2
  rw [View.read_apply]
  show (V c main_v31 : S50000x128.Idx → EReal) (((cfg2.win 0).blk t).view.emb y) = _
  refine congrArg (V c main_v31 : S50000x128.Idx → EReal) ?_
  funext a; apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- Window 1's block at point t is the same rows of the aggregated features. -/
theorem rows2_1 (c : Dev nD) (t : Fin cfg2.N) (y : S5000x128.Idx) (i : S50000x128.Idx)
    (hi0 : (i 0).val = t.val * 5000 + (y 0).val) (hi1 : (i 1).val = (y 1).val) :
    (iblk2 V c 1 t : Vec Ideal S5000x128 .f32) y = (V c main_v44 : S50000x128.Idx → EReal) i := by
  obtain ⟨-, -, e10, e11, -⟩ := blockIndex2 t
  unfold iblk2
  rw [View.read_apply]
  show (V c main_v44 : S50000x128.Idx → EReal) (((cfg2.win 1).blk t).view.emb y) = _
  refine congrArg (V c main_v44 : S50000x128.Idx → EReal) ?_
  funext a; apply Fin.ext
  match a with
  | ⟨0, _⟩ => show win2_1.index t (0 : Fin 2) * 5000 + 1 * (y 0).val = (i 0).val; omega
  | ⟨1, _⟩ => show win2_1.index t (1 : Fin 2) * 128 + 1 * (y 1).val = (i 1).val; omega

/-- Window 2's block at every point is the whole first weight matrix. -/
theorem whole2_2 (c : Dev nD) (t : Fin cfg2.N) (y : S128x128.Idx) :
    (iblk2 V c 2 t : Vec Ideal S128x128 .f32) y = (V c main_arg9 : S128x128.Idx → EReal) y := by
  obtain ⟨-, -, -, -, e20, e21, -⟩ := blockIndex2 t
  unfold iblk2
  rw [View.read_apply]
  show (V c main_arg9 : S128x128.Idx → EReal) (((cfg2.win 2).blk t).view.emb y) = _
  refine congrArg (V c main_arg9 : S128x128.Idx → EReal) ?_
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block at every point is the whole bias. -/
theorem whole2_3 (c : Dev nD) (t : Fin cfg2.N) (y : S128.Idx) :
    (iblk2 V c 3 t : Vec Ideal S128 .f32) y = (V c main_arg10 : S128.Idx → EReal) y := by
  obtain ⟨-, -, -, -, -, -, e30, -⟩ := blockIndex2 t
  unfold iblk2
  rw [View.read_apply]
  show (V c main_arg10 : S128.Idx → EReal) (((cfg2.win 3).blk t).view.emb y) = _
  refine congrArg (V c main_arg10 : S128.Idx → EReal) ?_
  funext a; apply Fin.ext
  match a with
  | ⟨0, _⟩ => show win2_3.index t (0 : Fin 1) * 128 + 1 * (y 0).val = (y 0).val; omega

/-- Window 4's block at every point is the whole second weight matrix. -/
theorem whole2_4 (c : Dev nD) (t : Fin cfg2.N) (y : S128x128.Idx) :
    (iblk2 V c 4 t : Vec Ideal S128x128 .f32) y = (V c main_arg11 : S128x128.Idx → EReal) y := by
  obtain ⟨-, -, -, -, -, -, -, e40, e41, -⟩ := blockIndex2 t
  unfold iblk2
  rw [View.read_apply]
  show (V c main_arg11 : S128x128.Idx → EReal) (((cfg2.win 4).blk t).view.emb y) = _
  refine congrArg (V c main_arg11 : S128x128.Idx → EReal) ?_
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- What point t writes back is block t of the layer of the arrays the region was entered with. -/
theorem writtenBack2 (c : Dev nD) (t : Fin cfg2.N) :
    (dat2 (F := Ideal) V c).flushed 5 t = ((cfg2.win 5).blk t).view.read (Elt Ideal)
      (Cert.Sage.layer (V c main_v31) (V c main_v44) (V c main_arg9) (V c main_arg10) (V c main_arg11)) := by
  show (cfg2.win 5).cut (grid2.coords t) ((dat2 V c).after 5 t) = _
  rw [after2_5]
  unfold out2_5
  rw [View.canon_unit_zero zeroOffsets2]
  simp only [View.ld_unit_zero (S := S5000x128) zeroOffsets2, View.ld_unit_zero (S := S128x128) zeroOffsets2,
    View.ld_unit_zero (S := S128) zeroOffsets1]
  funext j
  have hp : (j 0).val < 5000 := (j 0).isLt
  have hq : (j 1).val < 128 := (j 1).isLt
  have hN : grid2.N = 10 := N_2
  have ht : t.val < grid2.N := t.isLt
  obtain ⟨-, -, -, -, -, -, -, -, -, e50, e51⟩ := blockIndex2 t
  have hj : (win2 5).xinj (grid2.coords t) j = ix2 (⟨(j 0).val, hp⟩ : Fin 5000) (⟨(j 1).val, hq⟩ : Fin 128) :=
    funext fun a => by match a with | ⟨0, _⟩ => rfl | ⟨1, _⟩ => rfl
  have hi : ((cfg2.win 5).blk t).view.emb j
      = ix2 (⟨t.val * 5000 + (j 0).val, by omega⟩ : Fin 50000) (⟨(j 1).val, hq⟩ : Fin 128) :=
    funext fun a => Fin.ext (by
      match a with
      | ⟨0, _⟩ => show win2_5.index t (0 : Fin 2) * 5000 + 1 * (j 0).val = t.val * 5000 + (j 0).val; omega
      | ⟨1, _⟩ => show win2_5.index t (1 : Fin 2) * 128 + 1 * (j 1).val = (j 1).val; omega)
  show k2_pay1 (F := Ideal) (iblk2 V c 0 t) (iblk2 V c 1 t) (iblk2 V c 2 t) (iblk2 V c 4 t) (iblk2 V c 3 t)
        ((win2 5).xinj (grid2.coords t) j)
      = Cert.Sage.layer (V c main_v31) (V c main_v44) (V c main_arg9) (V c main_arg10) (V c main_arg11) (((cfg2.win 5).blk t).view.emb j)
  rw [hj, hi]
  exact layerBlock2_at (V c main_v31) (V c main_v44) (V c main_arg9) (V c main_arg11) (V c main_arg10)
    (iblk2 V c 0 t) (iblk2 V c 1 t) (iblk2 V c 2 t) (iblk2 V c 4 t) (iblk2 V c 3 t)
    ⟨(j 0).val, hp⟩ ⟨(j 1).val, hq⟩ ⟨t.val * 5000 + (j 0).val, by omega⟩
    (fun k => rows2_0 V c t _ _ rfl rfl) (fun k => rows2_1 V c t _ _ rfl rfl)
    (fun k => whole2_2 V c t _) (whole2_3 V c t _) (fun k => whole2_4 V c t _)

/-- An index of the output is in point t's block iff each coordinate is in the block's range on its axis. -/
theorem mem_block2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v45).slice (win2_5.rect t)).set ↔ _
  rw [View.set_slice_whole, Rect.mem_set_unit]
  exact Iff.rfl

/-- Row r of the output lies in the block of point r / 5000, which is written back. -/
theorem covered2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 :=
    ⟨⟨(i 0).val / 5000, by show _ < grid2.N; omega⟩, rfl⟩
  obtain ⟨-, -, -, -, -, -, -, -, -, e50, e51⟩ := blockIndex2 t
  refine ⟨t, flush2_5 t, ?_⟩
  rw [mem_block2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region is the layer of the arrays the region was entered with. -/
theorem region2 (c : Dev nD) :
    (dat2 (F := Ideal) V c).arrAt 5 cfg2.N
      = Cert.Sage.layer (V c main_v31) (V c main_v44) (V c main_arg9) (V c main_arg10) (V c main_arg11) :=
  (dat2 (F := Ideal) V c).arrAt_eq_of_cover 5 _ (fun t _ => writtenBack2 V c t) (covered2)

end Cert.KernelIdeal.Hand

end
-- ==== Proof.KerVal.lean ====
/-
  The kernel program's result buffer at the end of its run, as the function kerOut of the fourteen launch arrays.
  The run's boundaries are followed from the launch: the rows of the edge list, then three times a host stretch that
  leaves the in-edge mean of the current features and a layer kernel that leaves the layer of KerOut.lean in its
  output array (every other buffer untouched), then the last host stretch. At each boundary the buffers still to be
  read are stated at their closed values.
-/
import proofs.«115632_j11665131176188_1_alg».proof.Proof.Gen.KernelIdeal.Frame
import proofs.«115632_j11665131176188_1_alg».proof.Proof.KerRead
import proofs.«115632_j11665131176188_1_alg».proof.Proof.KerKeep
import proofs.«115632_j11665131176188_1_alg».proof.Proof.KerOut
import proofs.«115632_j11665131176188_1_alg».proof.Proof.KerRegion0
import proofs.«115632_j11665131176188_1_alg».proof.Proof.KerRegion1
import proofs.«115632_j11665131176188_1_alg».proof.Proof.KerRegion2

noncomputable section

namespace Cert.KernelIdeal.Hand

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch: the edge list's rows; the arguments as launched -/

theorem W1_main_v1 : W1 m ρ c (Proc.devRef .tc main_v1) = srcOf (m ((c : Thread nD τ).loc main_arg1)) := rows_read_src (W0 m ρ c)
theorem W1_main_v3 : W1 m ρ c (Proc.devRef .tc main_v3) = dstOf (m ((c : Thread nD τ).loc main_arg1)) := rows_read_dst (W0 m ρ c)
theorem W1_main_arg0 : W1 m ρ c (Proc.devRef .tc main_arg0) = (m ((c : Thread nD τ).loc main_arg0)) := keep0_main_arg0 (W0 m ρ c)
theorem W1_main_arg2 : W1 m ρ c (Proc.devRef .tc main_arg2) = (m ((c : Thread nD τ).loc main_arg2)) := keep0_main_arg2 (W0 m ρ c)
theorem W1_main_arg3 : W1 m ρ c (Proc.devRef .tc main_arg3) = (m ((c : Thread nD τ).loc main_arg3)) := keep0_main_arg3 (W0 m ρ c)
theorem W1_main_arg4 : W1 m ρ c (Proc.devRef .tc main_arg4) = (m ((c : Thread nD τ).loc main_arg4)) := keep0_main_arg4 (W0 m ρ c)
theorem W1_main_arg5 : W1 m ρ c (Proc.devRef .tc main_arg5) = (m ((c : Thread nD τ).loc main_arg5)) := keep0_main_arg5 (W0 m ρ c)
theorem W1_main_arg6 : W1 m ρ c (Proc.devRef .tc main_arg6) = (m ((c : Thread nD τ).loc main_arg6)) := keep0_main_arg6 (W0 m ρ c)
theorem W1_main_arg7 : W1 m ρ c (Proc.devRef .tc main_arg7) = (m ((c : Thread nD τ).loc main_arg7)) := keep0_main_arg7 (W0 m ρ c)
theorem W1_main_arg8 : W1 m ρ c (Proc.devRef .tc main_arg8) = (m ((c : Thread nD τ).loc main_arg8)) := keep0_main_arg8 (W0 m ρ c)
theorem W1_main_arg9 : W1 m ρ c (Proc.devRef .tc main_arg9) = (m ((c : Thread nD τ).loc main_arg9)) := keep0_main_arg9 (W0 m ρ c)
theorem W1_main_arg10 : W1 m ρ c (Proc.devRef .tc main_arg10) = (m ((c : Thread nD τ).loc main_arg10)) := keep0_main_arg10 (W0 m ρ c)
theorem W1_main_arg11 : W1 m ρ c (Proc.devRef .tc main_arg11) = (m ((c : Thread nD τ).loc main_arg11)) := keep0_main_arg11 (W0 m ρ c)
theorem W1_main_arg12 : W1 m ρ c (Proc.devRef .tc main_arg12) = (m ((c : Thread nD τ).loc main_arg12)) := keep0_main_arg12 (W0 m ρ c)
theorem W1_main_arg13 : W1 m ρ c (Proc.devRef .tc main_arg13) = (m ((c : Thread nD τ).loc main_arg13)) := keep0_main_arg13 (W0 m ρ c)

/-! ## At the first layer kernel's entry -/

theorem W3_main_v1 : W3 m ρ c (Proc.devRef .tc main_v1) = srcOf (m ((c : Thread nD τ).loc main_arg1)) := (keepA_main_v1 (W1 m ρ c)).trans (W1_main_v1 m ρ c)
theorem W3_main_v3 : W3 m ρ c (Proc.devRef .tc main_v3) = dstOf (m ((c : Thread nD τ).loc main_arg1)) := (keepA_main_v3 (W1 m ρ c)).trans (W1_main_v3 m ρ c)
theorem W3_main_arg0 : W3 m ρ c (Proc.devRef .tc main_arg0) = (m ((c : Thread nD τ).loc main_arg0)) := (keepA_main_arg0 (W1 m ρ c)).trans (W1_main_arg0 m ρ c)
theorem W3_main_arg2 : W3 m ρ c (Proc.devRef .tc main_arg2) = (m ((c : Thread nD τ).loc main_arg2)) := (keepA_main_arg2 (W1 m ρ c)).trans (W1_main_arg2 m ρ c)
theorem W3_main_arg3 : W3 m ρ c (Proc.devRef .tc main_arg3) = (m ((c : Thread nD τ).loc main_arg3)) := (keepA_main_arg3 (W1 m ρ c)).trans (W1_main_arg3 m ρ c)
theorem W3_main_arg4 : W3 m ρ c (Proc.devRef .tc main_arg4) = (m ((c : Thread nD τ).loc main_arg4)) := (keepA_main_arg4 (W1 m ρ c)).trans (W1_main_arg4 m ρ c)
theorem W3_main_arg5 : W3 m ρ c (Proc.devRef .tc main_arg5) = (m ((c : Thread nD τ).loc main_arg5)) := (keepA_main_arg5 (W1 m ρ c)).trans (W1_main_arg5 m ρ c)
theorem W3_main_arg6 : W3 m ρ c (Proc.devRef .tc main_arg6) = (m ((c : Thread nD τ).loc main_arg6)) := (keepA_main_arg6 (W1 m ρ c)).trans (W1_main_arg6 m ρ c)
theorem W3_main_arg7 : W3 m ρ c (Proc.devRef .tc main_arg7) = (m ((c : Thread nD τ).loc main_arg7)) := (keepA_main_arg7 (W1 m ρ c)).trans (W1_main_arg7 m ρ c)
theorem W3_main_arg8 : W3 m ρ c (Proc.devRef .tc main_arg8) = (m ((c : Thread nD τ).loc main_arg8)) := (keepA_main_arg8 (W1 m ρ c)).trans (W1_main_arg8 m ρ c)
theorem W3_main_arg9 : W3 m ρ c (Proc.devRef .tc main_arg9) = (m ((c : Thread nD τ).loc main_arg9)) := (keepA_main_arg9 (W1 m ρ c)).trans (W1_main_arg9 m ρ c)
theorem W3_main_arg10 : W3 m ρ c (Proc.devRef .tc main_arg10) = (m ((c : Thread nD τ).loc main_arg10)) := (keepA_main_arg10 (W1 m ρ c)).trans (W1_main_arg10 m ρ c)
theorem W3_main_arg11 : W3 m ρ c (Proc.devRef .tc main_arg11) = (m ((c : Thread nD τ).loc main_arg11)) := (keepA_main_arg11 (W1 m ρ c)).trans (W1_main_arg11 m ρ c)
theorem W3_main_arg12 : W3 m ρ c (Proc.devRef .tc main_arg12) = (m ((c : Thread nD τ).loc main_arg12)) := (keepA_main_arg12 (W1 m ρ c)).trans (W1_main_arg12 m ρ c)
theorem W3_main_arg13 : W3 m ρ c (Proc.devRef .tc main_arg13) = (m ((c : Thread nD τ).loc main_arg13)) := (keepA_main_arg13 (W1 m ρ c)).trans (W1_main_arg13 m ρ c)
theorem W3_main_v16 : W3 m ρ c (Proc.devRef .tc main_v16) = aggMean (F := Ideal) (m ((c : Thread nD τ).loc main_arg0)) (srcOf (m ((c : Thread nD τ).loc main_arg1))) (dstOf (m ((c : Thread nD τ).loc main_arg1))) := by
  have h := agg_read0 (W1 m ρ c)
  rw [W1_main_arg0 m ρ c, W1_main_v1 m ρ c, W1_main_v3 m ρ c] at h
  exact h

/-! ## After the first layer kernel -/

/-- The features after one round. -/
abbrev X1 : FVec Ideal S50000x128 .f32 := feat (m ((c : Thread nD τ).loc main_arg0)) (m ((c : Thread nD τ).loc main_arg1)) (m ((c : Thread nD τ).loc main_arg3)) (m ((c : Thread nD τ).loc main_arg4)) (m ((c : Thread nD τ).loc main_arg5))

theorem W4_main_v17 : W4 m ρ c (Proc.devRef .tc main_v17) = X1 m c := by
  have h := W4_arr m ρ c 5
  rw [region0 (V3 m ρ) c] at h
  rw [show V3 m ρ c main_arg0 = _ from W3_main_arg0 m ρ c, show V3 m ρ c main_v16 = _ from W3_main_v16 m ρ c,
    show V3 m ρ c main_arg3 = _ from W3_main_arg3 m ρ c, show V3 m ρ c main_arg4 = _ from W3_main_arg4 m ρ c,
    show V3 m ρ c main_arg5 = _ from W3_main_arg5 m ρ c] at h
  exact h
theorem W4_main_v1 : W4 m ρ c (Proc.devRef .tc main_v1) = srcOf (m ((c : Thread nD τ).loc main_arg1)) := (W4_of_ne m ρ c main_v1 (by decide)).trans (W3_main_v1 m ρ c)
theorem W4_main_v3 : W4 m ρ c (Proc.devRef .tc main_v3) = dstOf (m ((c : Thread nD τ).loc main_arg1)) := (W4_of_ne m ρ c main_v3 (by decide)).trans (W3_main_v3 m ρ c)
theorem W4_main_arg2 : W4 m ρ c (Proc.devRef .tc main_arg2) = (m ((c : Thread nD τ).loc main_arg2)) := (W4_of_ne m ρ c main_arg2 (by decide)).trans (W3_main_arg2 m ρ c)
theorem W4_main_arg6 : W4 m ρ c (Proc.devRef .tc main_arg6) = (m ((c : Thread nD τ).loc main_arg6)) := (W4_of_ne m ρ c main_arg6 (by decide)).trans (W3_main_arg6 m ρ c)
theorem W4_main_arg7 : W4 m ρ c (Proc.devRef .tc main_arg7) = (m ((c : Thread nD τ).loc main_arg7)) := (W4_of_ne m ρ c main_arg7 (by decide)).trans (W3_main_arg7 m ρ c)
theorem W4_main_arg8 : W4 m ρ c (Proc.devRef .tc main_arg8) = (m ((c : Thread nD τ).loc main_arg8)) := (W4_of_ne m ρ c main_arg8 (by decide)).trans (W3_main_arg8 m ρ c)
theorem W4_main_arg9 : W4 m ρ c (Proc.devRef .tc main_arg9) = (m ((c : Thread nD τ).loc main_arg9)) := (W4_of_ne m ρ c main_arg9 (by decide)).trans (W3_main_arg9 m ρ c)
theorem W4_main_arg10 : W4 m ρ c (Proc.devRef .tc main_arg10) = (m ((c : Thread nD τ).loc main_arg10)) := (W4_of_ne m ρ c main_arg10 (by decide)).trans (W3_main_arg10 m ρ c)
theorem W4_main_arg11 : W4 m ρ c (Proc.devRef .tc main_arg11) = (m ((c : Thread nD τ).loc main_arg11)) := (W4_of_ne m ρ c main_arg11 (by decide)).trans (W3_main_arg11 m ρ c)
theorem W4_main_arg12 : W4 m ρ c (Proc.devRef .tc main_arg12) = (m ((c : Thread nD τ).loc main_arg12)) := (W4_of_ne m ρ c main_arg12 (by decide)).trans (W3_main_arg12 m ρ c)
theorem W4_main_arg13 : W4 m ρ c (Proc.devRef .tc main_arg13) = (m ((c : Thread nD τ).loc main_arg13)) := (W4_of_ne m ρ c main_arg13 (by decide)).trans (W3_main_arg13 m ρ c)

/-! ## At the second layer kernel's entry -/

theorem W6_main_v17 : W6 m ρ c (Proc.devRef .tc main_v17) = X1 m c := (keepB_main_v17 (W4 m ρ c)).trans (W4_main_v17 m ρ c)
theorem W6_main_v1 : W6 m ρ c (Proc.devRef .tc main_v1) = srcOf (m ((c : Thread nD τ).loc main_arg1)) := (keepB_main_v1 (W4 m ρ c)).trans (W4_main_v1 m ρ c)
theorem W6_main_v3 : W6 m ρ c (Proc.devRef .tc main_v3) = dstOf (m ((c : Thread nD τ).loc main_arg1)) := (keepB_main_v3 (W4 m ρ c)).trans (W4_main_v3 m ρ c)
theorem W6_main_arg2 : W6 m ρ c (Proc.devRef .tc main_arg2) = (m ((c : Thread nD τ).loc main_arg2)) := (keepB_main_arg2 (W4 m ρ c)).trans (W4_main_arg2 m ρ c)
theorem W6_main_arg6 : W6 m ρ c (Proc.devRef .tc main_arg6) = (m ((c : Thread nD τ).loc main_arg6)) := (keepB_main_arg6 (W4 m ρ c)).trans (W4_main_arg6 m ρ c)
theorem W6_main_arg7 : W6 m ρ c (Proc.devRef .tc main_arg7) = (m ((c : Thread nD τ).loc main_arg7)) := (keepB_main_arg7 (W4 m ρ c)).trans (W4_main_arg7 m ρ c)
theorem W6_main_arg8 : W6 m ρ c (Proc.devRef .tc main_arg8) = (m ((c : Thread nD τ).loc main_arg8)) := (keepB_main_arg8 (W4 m ρ c)).trans (W4_main_arg8 m ρ c)
theorem W6_main_arg9 : W6 m ρ c (Proc.devRef .tc main_arg9) = (m ((c : Thread nD τ).loc main_arg9)) := (keepB_main_arg9 (W4 m ρ c)).trans (W4_main_arg9 m ρ c)
theorem W6_main_arg10 : W6 m ρ c (Proc.devRef .tc main_arg10) = (m ((c : Thread nD τ).loc main_arg10)) := (keepB_main_arg10 (W4 m ρ c)).trans (W4_main_arg10 m ρ c)
theorem W6_main_arg11 : W6 m ρ c (Proc.devRef .tc main_arg11) = (m ((c : Thread nD τ).loc main_arg11)) := (keepB_main_arg11 (W4 m ρ c)).trans (W4_main_arg11 m ρ c)
theorem W6_main_arg12 : W6 m ρ c (Proc.devRef .tc main_arg12) = (m ((c : Thread nD τ).loc main_arg12)) := (keepB_main_arg12 (W4 m ρ c)).trans (W4_main_arg12 m ρ c)
theorem W6_main_arg13 : W6 m ρ c (Proc.devRef .tc main_arg13) = (m ((c : Thread nD τ).loc main_arg13)) := (keepB_main_arg13 (W4 m ρ c)).trans (W4_main_arg13 m ρ c)
theorem W6_main_v30 : W6 m ρ c (Proc.devRef .tc main_v30) = aggMean (F := Ideal) (X1 m c) (srcOf (m ((c : Thread nD τ).loc main_arg1))) (dstOf (m ((c : Thread nD τ).loc main_arg1))) := by
  have h := agg_read1 (W4 m ρ c)
  rw [W4_main_v17 m ρ c, W4_main_v1 m ρ c, W4_main_v3 m ρ c] at h
  exact h

/-! ## After the second layer kernel -/

/-- The features after two rounds. -/
abbrev X2 : FVec Ideal S50000x128 .f32 := feat (X1 m c) (m ((c : Thread nD τ).loc main_arg1)) (m ((c : Thread nD τ).loc main_arg6)) (m ((c : Thread nD τ).loc main_arg7)) (m ((c : Thread nD τ).loc main_arg8))

theorem W7_main_v31 : W7 m ρ c (Proc.devRef .tc main_v31) = X2 m c := by
  have h := W7_arr m ρ c 5
  rw [region1 (V6 m ρ) c] at h
  rw [show V6 m ρ c main_v17 = _ from W6_main_v17 m ρ c, show V6 m ρ c main_v30 = _ from W6_main_v30 m ρ c,
    show V6 m ρ c main_arg6 = _ from W6_main_arg6 m ρ c, show V6 m ρ c main_arg7 = _ from W6_main_arg7 m ρ c,
    show V6 m ρ c main_arg8 = _ from W6_main_arg8 m ρ c] at h
  exact h
theorem W7_main_v1 : W7 m ρ c (Proc.devRef .tc main_v1) = srcOf (m ((c : Thread nD τ).loc main_arg1)) := (W7_of_ne m ρ c main_v1 (by decide)).trans (W6_main_v1 m ρ c)
theorem W7_main_v3 : W7 m ρ c (Proc.devRef .tc main_v3) = dstOf (m ((c : Thread nD τ).loc main_arg1)) := (W7_of_ne m ρ c main_v3 (by decide)).trans (W6_main_v3 m ρ c)
theorem W7_main_arg2 : W7 m ρ c (Proc.devRef .tc main_arg2) = (m ((c : Thread nD τ).loc main_arg2)) := (W7_of_ne m ρ c main_arg2 (by decide)).trans (W6_main_arg2 m ρ c)
theorem W7_main_arg9 : W7 m ρ c (Proc.devRef .tc main_arg9) = (m ((c : Thread nD τ).loc main_arg9)) := (W7_of_ne m ρ c main_arg9 (by decide)).trans (W6_main_arg9 m ρ c)
theorem W7_main_arg10 : W7 m ρ c (Proc.devRef .tc main_arg10) = (m ((c : Thread nD τ).loc main_arg10)) := (W7_of_ne m ρ c main_arg10 (by decide)).trans (W6_main_arg10 m ρ c)
theorem W7_main_arg11 : W7 m ρ c (Proc.devRef .tc main_arg11) = (m ((c : Thread nD τ).loc main_arg11)) := (W7_of_ne m ρ c main_arg11 (by decide)).trans (W6_main_arg11 m ρ c)
theorem W7_main_arg12 : W7 m ρ c (Proc.devRef .tc main_arg12) = (m ((c : Thread nD τ).loc main_arg12)) := (W7_of_ne m ρ c main_arg12 (by decide)).trans (W6_main_arg12 m ρ c)
theorem W7_main_arg13 : W7 m ρ c (Proc.devRef .tc main_arg13) = (m ((c : Thread nD τ).loc main_arg13)) := (W7_of_ne m ρ c main_arg13 (by decide)).trans (W6_main_arg13 m ρ c)

/-! ## At the third layer kernel's entry -/

theorem W9_main_v31 : W9 m ρ c (Proc.devRef .tc main_v31) = X2 m c := (keepC_main_v31 (W7 m ρ c)).trans (W7_main_v31 m ρ c)
theorem W9_main_arg2 : W9 m ρ c (Proc.devRef .tc main_arg2) = (m ((c : Thread nD τ).loc main_arg2)) := (keepC_main_arg2 (W7 m ρ c)).trans (W7_main_arg2 m ρ c)
theorem W9_main_arg9 : W9 m ρ c (Proc.devRef .tc main_arg9) = (m ((c : Thread nD τ).loc main_arg9)) := (keepC_main_arg9 (W7 m ρ c)).trans (W7_main_arg9 m ρ c)
theorem W9_main_arg10 : W9 m ρ c (Proc.devRef .tc main_arg10) = (m ((c : Thread nD τ).loc main_arg10)) := (keepC_main_arg10 (W7 m ρ c)).trans (W7_main_arg10 m ρ c)
theorem W9_main_arg11 : W9 m ρ c (Proc.devRef .tc main_arg11) = (m ((c : Thread nD τ).loc main_arg11)) := (keepC_main_arg11 (W7 m ρ c)).trans (W7_main_arg11 m ρ c)
theorem W9_main_arg12 : W9 m ρ c (Proc.devRef .tc main_arg12) = (m ((c : Thread nD τ).loc main_arg12)) := (keepC_main_arg12 (W7 m ρ c)).trans (W7_main_arg12 m ρ c)
theorem W9_main_arg13 : W9 m ρ c (Proc.devRef .tc main_arg13) = (m ((c : Thread nD τ).loc main_arg13)) := (keepC_main_arg13 (W7 m ρ c)).trans (W7_main_arg13 m ρ c)
theorem W9_main_v44 : W9 m ρ c (Proc.devRef .tc main_v44) = aggMean (F := Ideal) (X2 m c) (srcOf (m ((c : Thread nD τ).loc main_arg1))) (dstOf (m ((c : Thread nD τ).loc main_arg1))) := by
  have h := agg_read2 (W7 m ρ c)
  rw [W7_main_v31 m ρ c, W7_main_v1 m ρ c, W7_main_v3 m ρ c] at h
  exact h

/-! ## After the third layer kernel, and the result -/

/-- The features after three rounds. -/
abbrev X3 : FVec Ideal S50000x128 .f32 := feat (X2 m c) (m ((c : Thread nD τ).loc main_arg1)) (m ((c : Thread nD τ).loc main_arg9)) (m ((c : Thread nD τ).loc main_arg10)) (m ((c : Thread nD τ).loc main_arg11))

theorem W10_main_v45 : W10 m ρ c (Proc.devRef .tc main_v45) = X3 m c := by
  have h := W10_arr m ρ c 5
  rw [region2 (V9 m ρ) c] at h
  rw [show V9 m ρ c main_v31 = _ from W9_main_v31 m ρ c, show V9 m ρ c main_v44 = _ from W9_main_v44 m ρ c,
    show V9 m ρ c main_arg9 = _ from W9_main_arg9 m ρ c, show V9 m ρ c main_arg10 = _ from W9_main_arg10 m ρ c,
    show V9 m ρ c main_arg11 = _ from W9_main_arg11 m ρ c] at h
  exact h
theorem W10_main_arg2 : W10 m ρ c (Proc.devRef .tc main_arg2) = (m ((c : Thread nD τ).loc main_arg2)) := (W10_of_ne m ρ c main_arg2 (by decide)).trans (W9_main_arg2 m ρ c)
theorem W10_main_arg12 : W10 m ρ c (Proc.devRef .tc main_arg12) = (m ((c : Thread nD τ).loc main_arg12)) := (W10_of_ne m ρ c main_arg12 (by decide)).trans (W9_main_arg12 m ρ c)
theorem W10_main_arg13 : W10 m ρ c (Proc.devRef .tc main_arg13) = (m ((c : Thread nD τ).loc main_arg13)) := (W10_of_ne m ρ c main_arg13 (by decide)).trans (W9_main_arg13 m ρ c)

/-- The result buffer at the end of the run is `kerOut` of the launch arrays. -/
theorem W11_val : W11 m ρ c (Proc.devRef .tc main_v62)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h := out_read (W10 m ρ c)
  rw [W10_main_v45 m ρ c, W10_main_arg2 m ρ c, W10_main_arg12 m ρ c, W10_main_arg13 m ρ c] at h
  exact h

end Cert.KernelIdeal.Hand

end
-- ==== Proof.RefRun.lean ====
/- The run of the reference program's @main: @main as ONE list of host operations — each call's body
   written out at the call over that call's buffers, which is what unfolding the callee's definition at its
   arguments gives — and the statement that every weakly fair execution ends with each buffer at the fold of
   the operations' results over the launch contents. -/
import proofs.«115632_j11665131176188_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements %0 … %22 of @main: the two rows of the edge table sliced and reshaped; @_take's 23 operations at its first call (the index wrapped by one `select`, broadcast to a column, the bounds test reduced, the gather, the fill by NaN outside the bounds); the scatter-add of the gathered rows and of ones, the division by the clamped count, the two products with the weights and the bias; @relu's 3 operations. (51 operations.) -/
abbrev opsA : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S600000, .i32⟩) (broadcastInDim S600000 ![] bcast_S_S600000),
    StableHlo.TRef.binary (.of main_v1 : StableHlo.TRef sig ⟨S600000, .i32⟩) (.of main_call0_v0 : StableHlo.TRef sig ⟨S600000, .i32⟩) (.of main_call0_v1 : StableHlo.TRef sig ⟨S600000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S600000, .i32⟩) (broadcastInDim S600000 ![] bcast_S_S600000),
    StableHlo.TRef.binary (.of main_v1 : StableHlo.TRef sig ⟨S600000, .i32⟩) (.of main_call0_v2 : StableHlo.TRef sig ⟨S600000, .i32⟩) (.of main_call0_v3 : StableHlo.TRef sig ⟨S600000, .i32⟩) addi,
    StableHlo.TRef.ternary (.of main_call0_v1 : StableHlo.TRef sig ⟨S600000, .i1⟩) (.of main_call0_v3 : StableHlo.TRef sig ⟨S600000, .i32⟩) (.of main_v1 : StableHlo.TRef sig ⟨S600000, .i32⟩) (.of main_call0_v4 : StableHlo.TRef sig ⟨S600000, .i32⟩) select,
    StableHlo.TRef.unary main_call0_call0.v0 (.of main_call0_v5 : StableHlo.TRef sig ⟨S600000x1, .i32⟩) (broadcastInDim S600000x1 ![0] bcast_S600000_S600000x1_0),
    StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S600000x1, .i32⟩) (broadcastInDim S600000x1 ![] bcast_S_S600000x1),
    StableHlo.TRef.binary (.of main_call0_v5 : StableHlo.TRef sig ⟨S600000x1, .i32⟩) (.of main_call0_v6 : StableHlo.TRef sig ⟨S600000x1, .i32⟩) (.of main_call0_v7 : StableHlo.TRef sig ⟨S600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S600000x1, .i32⟩) (broadcastInDim S600000x1 ![0, 1] bcast_S1x1_S600000x1_0_1),
    StableHlo.TRef.binary (.of main_call0_v5 : StableHlo.TRef sig ⟨S600000x1, .i32⟩) (.of main_call0_v9 : StableHlo.TRef sig ⟨S600000x1, .i32⟩) (.of main_call0_v10 : StableHlo.TRef sig ⟨S600000x1, .i1⟩) (cmpi .sle),
    StableHlo.TRef.binary (.of main_call0_v7 : StableHlo.TRef sig ⟨S600000x1, .i1⟩) (.of main_call0_v10 : StableHlo.TRef sig ⟨S600000x1, .i1⟩) (.of main_call0_v11 : StableHlo.TRef sig ⟨S600000x1, .i1⟩) andi,
    StableHlo.TRef.nullary (.of main_call0_c_3 : StableHlo.TRef sig ⟨S_, .i1⟩) (constantI S_ 1 1#1),
    StableHlo.TRef.binary (.of main_call0_v11 : StableHlo.TRef sig ⟨S600000x1, .i1⟩) (.of main_call0_c_3 : StableHlo.TRef sig ⟨S_, .i1⟩) (.of main_call0_v12 : StableHlo.TRef sig ⟨S600000, .i1⟩) (fun x v => Host.reduce IntOp.andi x v reducesTo_S600000x1_S600000_d1 h_S_),
    StableHlo.TRef.binary (.of main_arg0 : StableHlo.TRef sig ⟨S50000x128, .f32⟩) (.of main_call0_v5 : StableHlo.TRef sig ⟨S600000x1, .i32⟩) (.of main_call0_v13 : StableHlo.TRef sig ⟨S600000x128, .f32⟩) (fun x i => Host.gather gather_S50000x128_S600000x1_S600000x128_1_0_n_n_0_1_1128 x i),
    StableHlo.TRef.unary (.of main_call0_v12 : StableHlo.TRef sig ⟨S600000, .i1⟩) (.of main_call0_v14 : StableHlo.TRef sig ⟨S600000x128, .i1⟩) (broadcastInDim S600000x128 ![0] bcast_S600000_S600000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S600000x128, .f32⟩) (broadcastInDim S600000x128 ![] bcast_S_S600000x128),
    StableHlo.TRef.ternary (.of main_call0_v14 : StableHlo.TRef sig ⟨S600000x128, .i1⟩) (.of main_call0_v13 : StableHlo.TRef sig ⟨S600000x128, .f32⟩) (.of main_call0_v15 : StableHlo.TRef sig ⟨S600000x128, .f32⟩) (.of main_v4 : StableHlo.TRef sig ⟨S600000x128, .f32⟩) select,
    StableHlo.nullary main_cst (constant S_ .f32 0x00000000#32),
    StableHlo.unary main_cst main_v5 (broadcastInDim S50000x128 ![] bcast_S_S50000x128 : (⟨S_, .f32⟩ : BufTy).Contents (Elt F) → (⟨S50000x128, .f32⟩ : BufTy).Contents (Elt F)),
    StableHlo.unary main_v3 main_v6 (broadcastInDim S600000x1 ![0] bcast_S600000_S600000x1_0 : (⟨S600000, .i32⟩ : BufTy).Contents (Elt F) → (⟨S600000x1, .i32⟩ : BufTy).Contents (Elt F)),
    StableHlo.ternary main_v5 main_v6 main_v4 main_v7 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_0 (constant S_ .f32 0x3F800000#32),
    StableHlo.unary main_cst_0 main_v8 (broadcastInDim S600000x1 ![] bcast_S_S600000x1 : (⟨S_, .f32⟩ : BufTy).Contents (Elt F) → (⟨S600000x1, .f32⟩ : BufTy).Contents (Elt F)),
    StableHlo.nullary main_cst_1 (constant S_ .f32 0x00000000#32),
    StableHlo.unary main_cst_1 main_v9 (broadcastInDim S50000x1 ![] bcast_S_S50000x1 : (⟨S_, .f32⟩ : BufTy).Contents (Elt F) → (⟨S50000x1, .f32⟩ : BufTy).Contents (Elt F)),
    StableHlo.unary main_v3 main_v10 (broadcastInDim S600000x1 ![0] bcast_S600000_S600000x1_0 : (⟨S600000, .i32⟩ : BufTy).Contents (Elt F) → (⟨S600000x1, .i32⟩ : BufTy).Contents (Elt F)),
    StableHlo.ternary main_v9 main_v10 main_v8 main_v11 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F)),
    StableHlo.nullary main_cst_2 (constant S_ .f32 0x3F800000#32),
    StableHlo.unary main_cst_2 main_v12 (broadcastInDim S50000x1 ![] bcast_S_S50000x1 : (⟨S_, .f32⟩ : BufTy).Contents (Elt F) → (⟨S50000x1, .f32⟩ : BufTy).Contents (Elt F)),
    StableHlo.binary main_v11 main_v12 main_v13 (maximumf : (⟨S50000x1, .f32⟩ : BufTy).Contents (Elt F) → (⟨S50000x1, .f32⟩ : BufTy).Contents (Elt F) → (⟨S50000x1, .f32⟩ : BufTy).Contents (Elt F)),
    StableHlo.unary main_v13 main_v14 (broadcastInDim S50000x128 ![0, 1] bcast_S50000x1_S50000x128_0_1 : (⟨S50000x1, .f32⟩ : BufTy).Contents (Elt F) → (⟨S50000x128, .f32⟩ : BufTy).Contents (Elt F)),
    StableHlo.binary main_v7 main_v14 main_v15 (Host.divf : (⟨S50000x128, .f32⟩ : BufTy).Contents (Elt F) → (⟨S50000x128, .f32⟩ : BufTy).Contents (Elt F) → (⟨S50000x128, .f32⟩ : BufTy).Contents (Elt F)),
    StableHlo.binary main_v15 main_arg3 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.binary main_arg0 main_arg5 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v19 main_v20 main_v21 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v21 : StableHlo.TRef sig ⟨S50000x128, .f32⟩) (.of main_call1_v0 : StableHlo.TRef sig ⟨S50000x128, .f32⟩) (.of main_v22 : StableHlo.TRef sig ⟨S50000x128, .f32⟩) maximumf ]

/-- Statements %23 … %41 of @main: the same layer a second time over the first layer's output. (47 operations.) -/
abbrev opsB : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S600000, .i32⟩) (broadcastInDim S600000 ![] bcast_S_S600000),
    StableHlo.TRef.binary (.of main_v1 : StableHlo.TRef sig ⟨S600000, .i32⟩) (.of main_call2_v0 : StableHlo.TRef sig ⟨S600000, .i32⟩) (.of main_call2_v1 : StableHlo.TRef sig ⟨S600000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S600000, .i32⟩) (broadcastInDim S600000 ![] bcast_S_S600000),
    StableHlo.TRef.binary (.of main_v1 : StableHlo.TRef sig ⟨S600000, .i32⟩) (.of main_call2_v2 : StableHlo.TRef sig ⟨S600000, .i32⟩) (.of main_call2_v3 : StableHlo.TRef sig ⟨S600000, .i32⟩) addi,
    StableHlo.TRef.ternary (.of main_call2_v1 : StableHlo.TRef sig ⟨S600000, .i1⟩) (.of main_call2_v3 : StableHlo.TRef sig ⟨S600000, .i32⟩) (.of main_v1 : StableHlo.TRef sig ⟨S600000, .i32⟩) (.of main_call2_v4 : StableHlo.TRef sig ⟨S600000, .i32⟩) select,
    StableHlo.TRef.unary main_call2_call0.v0 (.of main_call2_v5 : StableHlo.TRef sig ⟨S600000x1, .i32⟩) (broadcastInDim S600000x1 ![0] bcast_S600000_S600000x1_0),
    StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S600000x1, .i32⟩) (broadcastInDim S600000x1 ![] bcast_S_S600000x1),
    StableHlo.TRef.binary (.of main_call2_v5 : StableHlo.TRef sig ⟨S600000x1, .i32⟩) (.of main_call2_v6 : StableHlo.TRef sig ⟨S600000x1, .i32⟩) (.of main_call2_v7 : StableHlo.TRef sig ⟨S600000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S600000x1, .i32⟩) (broadcastInDim S600000x1 ![0, 1] bcast_S1x1_S600000x1_0_1),
    StableHlo.TRef.binary (.of main_call2_v5 : StableHlo.TRef sig ⟨S600000x1, .i32⟩) (.of main_call2_v9 : StableHlo.TRef sig ⟨S600000x1, .i32⟩) (.of main_call2_v10 : StableHlo.TRef sig ⟨S600000x1, .i1⟩) (cmpi .sle),
    StableHlo.TRef.binary (.of main_call2_v7 : StableHlo.TRef sig ⟨S600000x1, .i1⟩) (.of main_call2_v10 : StableHlo.TRef sig ⟨S600000x1, .i1⟩) (.of main_call2_v11 : StableHlo.TRef sig ⟨S600000x1, .i1⟩) andi,
    StableHlo.TRef.nullary (.of main_call2_c_3 : StableHlo.TRef sig ⟨S_, .i1⟩) (constantI S_ 1 1#1),
    StableHlo.TRef.binary (.of main_call2_v11 : StableHlo.TRef sig ⟨S600000x1, .i1⟩) (.of main_call2_c_3 : StableHlo.TRef sig ⟨S_, .i1⟩) (.of main_call2_v12 : StableHlo.TRef sig ⟨S600000, .i1⟩) (fun x v => Host.reduce IntOp.andi x v reducesTo_S600000x1_S600000_d1 h_S_),
    StableHlo.TRef.binary (.of main_v22 : StableHlo.TRef sig ⟨S50000x128, .f32⟩) (.of main_call2_v5 : StableHlo.TRef sig ⟨S600000x1, .i32⟩) (.of main_call2_v13 : StableHlo.TRef sig ⟨S600000x128, .f32⟩) (fun x i => Host.gather gather_S50000x128_S600000x1_S600000x128_1_0_n_n_0_1_1128 x i),
    StableHlo.TRef.unary (.of main_call2_v12 : StableHlo.TRef sig ⟨S600000, .i1⟩) (.of main_call2_v14 : StableHlo.TRef sig ⟨S600000x128, .i1⟩) (broadcastInDim S600000x128 ![0] bcast_S600000_S600000x128_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S600000x128, .f32⟩) (broadcastInDim S600000x128 ![] bcast_S_S600000x128),
    StableHlo.TRef.ternary (.of main_call2_v14 : StableHlo.TRef sig ⟨S600000x128, .i1⟩) (.of main_call2_v13 : StableHlo.TRef sig ⟨S600000x128, .f32⟩) (.of main_call2_v15 : StableHlo.TRef sig ⟨S600000x128, .f32⟩) (.of main_v23 : StableHlo.TRef sig ⟨S600000x128, .f32⟩) select,
    StableHlo.nullary main_cst_3 (constant S_ .f32 0x00000000#32),
    StableHlo.unary main_cst_3 main_v24 (broadcastInDim S50000x128 ![] bcast_S_S50000x128 : (⟨S_, .f32⟩ : BufTy).Contents (Elt F) → (⟨S50000x128, .f32⟩ : BufTy).Contents (Elt F)),
    StableHlo.unary main_v3 main_v25 (broadcastInDim S600000x1 ![0] bcast_S600000_S600000x1_0 : (⟨S600000, .i32⟩ : BufTy).Contents (Elt F) → (⟨S600000x1, .i32⟩ : BufTy).Contents (Elt F)),
    StableHlo.ternary main_v24 main_v25 main_v23 main_v26 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_4 (constant S_ .f32 0x3F800000#32),
    StableHlo.unary main_cst_4 main_v27 (broadcastInDim S600000x1 ![] bcast_S_S600000x1 : (⟨S_, .f32⟩ : BufTy).Contents (Elt F) → (⟨S600000x1, .f32⟩ : BufTy).Contents (Elt F)),
    StableHlo.nullary main_cst_5 (constant S_ .f32 0x00000000#32),
    StableHlo.unary main_cst_5 main_v28 (broadcastInDim S50000x1 ![] bcast_S_S50000x1 : (⟨S_, .f32⟩ : BufTy).Contents (Elt F) → (⟨S50000x1, .f32⟩ : BufTy).Contents (Elt F)),
    StableHlo.unary main_v3 main_v29 (broadcastInDim S600000x1 ![0] bcast_S600000_S600000x1_0 : (⟨S600000, .i32⟩ : BufTy).Contents (Elt F) → (⟨S600000x1, .i32⟩ : BufTy).Contents (Elt F)),
    StableHlo.ternary main_v28 main_v29 main_v27 main_v30 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F)),
    StableHlo.nullary main_cst_6 (constant S_ .f32 0x3F800000#32),
    StableHlo.unary main_cst_6 main_v31 (broadcastInDim S50000x1 ![] bcast_S_S50000x1 : (⟨S_, .f32⟩ : BufTy).Contents (Elt F) → (⟨S50000x1, .f32⟩ : BufTy).Contents (Elt F)),
    StableHlo.binary main_v30 main_v31 main_v32 (maximumf : (⟨S50000x1, .f32⟩ : BufTy).Contents (Elt F) → (⟨S50000x1, .f32⟩ : BufTy).Contents (Elt F) → (⟨S50000x1, .f32⟩ : BufTy).Contents (Elt F)),
    StableHlo.unary main_v32 main_v33 (broadcastInDim S50000x128 ![0, 1] bcast_S50000x1_S50000x128_0_1 : (⟨S50000x1, .f32⟩ : BufTy).Contents (Elt F) → (⟨S50000x128, .f32⟩ : BufTy).Contents (Elt F)),
    StableHlo.binary main_v26 main_v33 main_v34 (Host.divf : (⟨S50000x128, .f32⟩ : BufTy).Contents (Elt F) → (⟨S50000x128, .f32⟩ : BufTy).Contents (Elt F) → (⟨S50000x128, .f32⟩ : BufTy).Contents (Elt F)),
    StableHlo.binary main_v34 main_arg6 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v37 main_v38 (addf : (⟨S50000x128, .f32⟩ : BufTy).Contents (Elt F) → (⟨S50000x128, .f32⟩ : BufTy).Contents (Elt F) → (⟨S50000x128, .f32⟩ : BufTy).Contents (Elt F)),
    StableHlo.binary main_v22 main_arg8 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v38 main_v39 main_v40 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v40 : StableHlo.TRef sig ⟨S50000x128, .f32⟩) (.of main_call3_v0 : StableHlo.TRef sig ⟨S50000x128, .f32⟩) (.of main_v41 : StableHlo.TRef sig ⟨S50000x128, .f32⟩) maximumf ]

/-- Statements %42 … %60 of @main: the same layer a third time over the second layer's output. (47 operations.) -/
abbrev opsC : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S600000, .i32⟩) (broadcastInDim S600000 ![] bcast_S_S600000),
    StableHlo.TRef.binary (.of main_v1 : StableHlo.TRef sig ⟨S600000, .i32⟩) (.of main_call4_v0 : StableHlo.TRef sig ⟨S600000, .i32⟩) (.of main_call4_v1 : StableHlo.TRef sig ⟨S600000, .i1⟩) (cmpi .slt),
    StableHlo.TRef.nullary (.of main_call4_c_0 : StableHlo.TRef sig ⟨S_, .i32⟩) (constantI S_ 32 50000#32),
    StableHlo.TRef.unary (.of main_call4_c_0 : StableHlo.TRef sig ⟨S_, .i32⟩) (.of main_call4_v2 : StableHlo.TRef sig ⟨S600000, .i32⟩) (broadcastInDim S600000 ![] bcast_S_S600000),
    StableHlo.TRef.binary (.of main_v1 : StableHlo.TRef sig ⟨S600000, .i32⟩) (.of main_call4_v2 : StableHlo.TRef sig ⟨S600000, .i32⟩) (.of main_call4_v3 : StableHlo.TRef sig ⟨S600000, .i32⟩) addi,
    StableHlo.TRef.ternary (.of main_call4_v1 : StableHlo.TRef sig ⟨S600000, .i1⟩) (.of main_call4_v3 : StableHlo.TRef sig ⟨S600000, .i32⟩) (.of main_v1 : StableHlo.TRef sig ⟨S600000, .i32⟩) (.of main_call4_v4 : StableHlo.TRef sig ⟨S600000, .i32⟩) select,
    StableHlo.TRef.unary main_call4_call0.v0 (.of main_call4_v5 : StableHlo.TRef sig ⟨S600000x1, .i32⟩) (broadcastInDim S600000x1 ![0] bcast_S600000_S600000x1_0),
    StableHlo.TRef.nullary (.of main_call4_c_1 : StableHlo.TRef sig ⟨S1, .i32⟩) (constantI S1 32 49999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S600000x1, .i32⟩) (broadcastInDim S600000x1 ![] bcast_S_S600000x1),
    StableHlo.TRef.binary (.of main_call4_v5 : StableHlo.TRef sig ⟨S600000x1, .i32⟩) (.of main_call4_v6 : StableHlo.TRef sig ⟨S600000x1, .i32⟩) (.of main_call4_v7 : StableHlo.TRef sig ⟨S600000x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S600000x1, .i32⟩) (broadcastInDim S600000x1 ![0, 1] bcast_S1x1_S600000x1_0_1),
    StableHlo.TRef.binary (.of main_call4_v5 : StableHlo.TRef sig ⟨S600000x1, .i32⟩) (.of main_call4_v9 : StableHlo.TRef sig ⟨S600000x1, .i32⟩) (.of main_call4_v10 : StableHlo.TRef sig ⟨S600000x1, .i1⟩) (cmpi .sle),
    StableHlo.TRef.binary (.of main_call4_v7 : StableHlo.TRef sig ⟨S600000x1, .i1⟩) (.of main_call4_v10 : StableHlo.TRef sig ⟨S600000x1, .i1⟩) (.of main_call4_v11 : StableHlo.TRef sig ⟨S600000x1, .i1⟩) andi,
    StableHlo.TRef.nullary (.of main_call4_c_3 : StableHlo.TRef sig ⟨S_, .i1⟩) (constantI S_ 1 1#1),
    StableHlo.TRef.binary (.of main_call4_v11 : StableHlo.TRef sig ⟨S600000x1, .i1⟩) (.of main_call4_c_3 : StableHlo.TRef sig ⟨S_, .i1⟩) (.of main_call4_v12 : StableHlo.TRef sig ⟨S600000, .i1⟩) (fun x v => Host.reduce IntOp.andi x v reducesTo_S600000x1_S600000_d1 h_S_),
    StableHlo.TRef.binary (.of main_v41 : StableHlo.TRef sig ⟨S50000x128, .f32⟩) (.of main_call4_v5 : StableHlo.TRef sig ⟨S600000x1, .i32⟩) (.of main_call4_v13 : StableHlo.TRef sig ⟨S600000x128, .f32⟩) (fun x i => Host.gather gather_S50000x128_S600000x1_S600000x128_1_0_n_n_0_1_1128 x i),
    StableHlo.TRef.unary (.of main_call4_v12 : StableHlo.TRef sig ⟨S600000, .i1⟩) (.of main_call4_v14 : StableHlo.TRef sig ⟨S600000x128, .i1⟩) (broadcastInDim S600000x128 ![0] bcast_S600000_S600000x128_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S600000x128, .f32⟩) (broadcastInDim S600000x128 ![] bcast_S_S600000x128),
    StableHlo.TRef.ternary (.of main_call4_v14 : StableHlo.TRef sig ⟨S600000x128, .i1⟩) (.of main_call4_v13 : StableHlo.TRef sig ⟨S600000x128, .f32⟩) (.of main_call4_v15 : StableHlo.TRef sig ⟨S600000x128, .f32⟩) (.of main_v42 : StableHlo.TRef sig ⟨S600000x128, .f32⟩) select,
    StableHlo.nullary main_cst_7 (constant S_ .f32 0x00000000#32),
    StableHlo.unary main_cst_7 main_v43 (broadcastInDim S50000x128 ![] bcast_S_S50000x128 : (⟨S_, .f32⟩ : BufTy).Contents (Elt F) → (⟨S50000x128, .f32⟩ : BufTy).Contents (Elt F)),
    StableHlo.unary main_v3 main_v44 (broadcastInDim S600000x1 ![0] bcast_S600000_S600000x1_0 : (⟨S600000, .i32⟩ : BufTy).Contents (Elt F) → (⟨S600000x1, .i32⟩ : BufTy).Contents (Elt F)),
    StableHlo.ternary main_v43 main_v44 main_v42 main_v45 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_8 (constant S_ .f32 0x3F800000#32),
    StableHlo.unary main_cst_8 main_v46 (broadcastInDim S600000x1 ![] bcast_S_S600000x1 : (⟨S_, .f32⟩ : BufTy).Contents (Elt F) → (⟨S600000x1, .f32⟩ : BufTy).Contents (Elt F)),
    StableHlo.nullary main_cst_9 (constant S_ .f32 0x00000000#32),
    StableHlo.unary main_cst_9 main_v47 (broadcastInDim S50000x1 ![] bcast_S_S50000x1 : (⟨S_, .f32⟩ : BufTy).Contents (Elt F) → (⟨S50000x1, .f32⟩ : BufTy).Contents (Elt F)),
    StableHlo.unary main_v3 main_v48 (broadcastInDim S600000x1 ![0] bcast_S600000_S600000x1_0 : (⟨S600000, .i32⟩ : BufTy).Contents (Elt F) → (⟨S600000x1, .i32⟩ : BufTy).Contents (Elt F)),
    StableHlo.ternary main_v47 main_v48 main_v46 main_v49 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F)),
    StableHlo.nullary main_cst_10 (constant S_ .f32 0x3F800000#32),
    StableHlo.unary main_cst_10 main_v50 (broadcastInDim S50000x1 ![] bcast_S_S50000x1 : (⟨S_, .f32⟩ : BufTy).Contents (Elt F) → (⟨S50000x1, .f32⟩ : BufTy).Contents (Elt F)),
    StableHlo.binary main_v49 main_v50 main_v51 (maximumf : (⟨S50000x1, .f32⟩ : BufTy).Contents (Elt F) → (⟨S50000x1, .f32⟩ : BufTy).Contents (Elt F) → (⟨S50000x1, .f32⟩ : BufTy).Contents (Elt F)),
    StableHlo.unary main_v51 main_v52 (broadcastInDim S50000x128 ![0, 1] bcast_S50000x1_S50000x128_0_1 : (⟨S50000x1, .f32⟩ : BufTy).Contents (Elt F) → (⟨S50000x128, .f32⟩ : BufTy).Contents (Elt F)),
    StableHlo.binary main_v45 main_v52 main_v53 (Host.divf : (⟨S50000x128, .f32⟩ : BufTy).Contents (Elt F) → (⟨S50000x128, .f32⟩ : BufTy).Contents (Elt F) → (⟨S50000x128, .f32⟩ : BufTy).Contents (Elt F)),
    StableHlo.binary main_v53 main_arg9 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v56 main_v57 (addf : (⟨S50000x128, .f32⟩ : BufTy).Contents (Elt F) → (⟨S50000x128, .f32⟩ : BufTy).Contents (Elt F) → (⟨S50000x128, .f32⟩ : BufTy).Contents (Elt F)),
    StableHlo.binary main_v41 main_arg11 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v57 main_v58 main_v59 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v59 : StableHlo.TRef sig ⟨S50000x128, .f32⟩) (.of main_call5_v0 : StableHlo.TRef sig ⟨S50000x128, .f32⟩) (.of main_v60 : StableHlo.TRef sig ⟨S50000x128, .f32⟩) maximumf ]

/-- Statements %cst_11 … %76 of @main: the scatter-add of the rows by graph and of ones, the division by the clamped count, the product with the last weight, the bias, the reshape to a vector. (20 operations.) -/
abbrev opsD : List (HloOp τ sig (Elt F)) :=
  [ StableHlo.nullary main_cst_11 (constant S_ .f32 0x00000000#32),
    StableHlo.unary main_cst_11 main_v61 (broadcastInDim S500x128 ![] bcast_S_S500x128 : (⟨S_, .f32⟩ : BufTy).Contents (Elt F) → (⟨S500x128, .f32⟩ : BufTy).Contents (Elt F)),
    StableHlo.unary main_arg2 main_v62 (broadcastInDim S50000x1 ![0] bcast_S50000_S50000x1_0 : (⟨S50000, .i32⟩ : BufTy).Contents (Elt F) → (⟨S50000x1, .i32⟩ : BufTy).Contents (Elt F)),
    StableHlo.ternary main_v61 main_v62 main_v60 main_v63 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    StableHlo.nullary main_cst_12 (constant S_ .f32 0x3F800000#32),
    StableHlo.unary main_cst_12 main_v64 (broadcastInDim S50000x1 ![] bcast_S_S50000x1 : (⟨S_, .f32⟩ : BufTy).Contents (Elt F) → (⟨S50000x1, .f32⟩ : BufTy).Contents (Elt F)),
    StableHlo.nullary main_cst_13 (constant S_ .f32 0x00000000#32),
    StableHlo.unary main_cst_13 main_v65 (broadcastInDim S500x1 ![] bcast_S_S500x1 : (⟨S_, .f32⟩ : BufTy).Contents (Elt F) → (⟨S500x1, .f32⟩ : BufTy).Contents (Elt F)),
    StableHlo.unary main_arg2 main_v66 (broadcastInDim S50000x1 ![0] bcast_S50000_S50000x1_0 : (⟨S50000, .i32⟩ : BufTy).Contents (Elt F) → (⟨S50000x1, .i32⟩ : BufTy).Contents (Elt F)),
    StableHlo.ternary main_v65 main_v66 main_v64 main_v67 ((fun x i u => Host.scatterAdd scatter_S500x1_S50000x1_S50000x1_1_0_0_1 x i u) : (⟨S500x1, .f32⟩ : BufTy).Contents (Elt F) → (⟨S50000x1, .i32⟩ : BufTy).Contents (Elt F) → (⟨S50000x1, .f32⟩ : BufTy).Contents (Elt F) → (⟨S500x1, .f32⟩ : BufTy).Contents (Elt F)),
    StableHlo.nullary main_cst_14 (constant S_ .f32 0x3F800000#32),
    StableHlo.unary main_cst_14 main_v68 (broadcastInDim S500x1 ![] bcast_S_S500x1 : (⟨S_, .f32⟩ : BufTy).Contents (Elt F) → (⟨S500x1, .f32⟩ : BufTy).Contents (Elt F)),
    StableHlo.binary main_v67 main_v68 main_v69 (maximumf : (⟨S500x1, .f32⟩ : BufTy).Contents (Elt F) → (⟨S500x1, .f32⟩ : BufTy).Contents (Elt F) → (⟨S500x1, .f32⟩ : BufTy).Contents (Elt F)),
    StableHlo.unary main_v69 main_v70 (broadcastInDim S500x128 ![0, 1] bcast_S500x1_S500x128_0_1 : (⟨S500x1, .f32⟩ : BufTy).Contents (Elt F) → (⟨S500x128, .f32⟩ : BufTy).Contents (Elt F)),
    StableHlo.binary main_v63 main_v70 main_v71 (Host.divf : (⟨S500x128, .f32⟩ : BufTy).Contents (Elt F) → (⟨S500x128, .f32⟩ : BufTy).Contents (Elt F) → (⟨S500x128, .f32⟩ : BufTy).Contents (Elt F)),
    StableHlo.binary main_v71 main_arg12 main_v72 ((fun l r => Host.dotGeneral dot_S500x128_S128x1_S500x1_1_0_0_1_n_n none l r) : (⟨S500x128, .f32⟩ : BufTy).Contents (Elt F) → (⟨S128x1, .f32⟩ : BufTy).Contents (Elt F) → (⟨S500x1, .f32⟩ : BufTy).Contents (Elt F)),
    StableHlo.unary main_arg13 main_v73 (broadcastInDim S1x1 ![1] bcast_S1_S1x1_1 : (⟨S1, .f32⟩ : BufTy).Contents (Elt F) → (⟨S1x1, .f32⟩ : BufTy).Contents (Elt F)),
    StableHlo.unary main_v73 main_v74 (broadcastInDim S500x1 ![0, 1] bcast_S1x1_S500x1_0_1 : (⟨S1x1, .f32⟩ : BufTy).Contents (Elt F) → (⟨S500x1, .f32⟩ : BufTy).Contents (Elt F)),
    StableHlo.binary main_v72 main_v74 main_v75 (addf : (⟨S500x1, .f32⟩ : BufTy).Contents (Elt F) → (⟨S500x1, .f32⟩ : BufTy).Contents (Elt F) → (⟨S500x1, .f32⟩ : BufTy).Contents (Elt F)),
    StableHlo.reshape main_v75 main_v76 rfl shapeCasts_S500x1_S500 ]

/-- @main's operations, in order. -/
abbrev ops : List (HloOp τ sig (Elt F)) := opsA ++ (opsB ++ (opsC ++ opsD))

/-- Each operation of `opsA` touches TensorCore references only. -/
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    binary_bufs_sub .., unary_bufs_sub .., unary_bufs_sub .., binary_bufs_sub .., binary_bufs_sub .., binary_bufs_sub ..,
    nullary_bufs_sub .., unary_bufs_sub .., binary_bufs_sub ..⟩

/-- No operation of `opsA` allocates a buffer. -/
theorem opsA_fresh : (opsA : List (HloOp τ sig (Elt F))).Forall fun op => op.fresh = ∅ := by
  simp only [List.Forall]; repeat' constructor

/-- Each operation of `opsB` touches TensorCore references only. -/
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., binary_bufs_sub .., binary_bufs_sub .., unary_bufs_sub .., unary_bufs_sub .., binary_bufs_sub ..,
    binary_bufs_sub .., binary_bufs_sub .., nullary_bufs_sub .., unary_bufs_sub .., binary_bufs_sub ..⟩

/-- No operation of `opsB` allocates a buffer. -/
theorem opsB_fresh : (opsB : List (HloOp τ sig (Elt F))).Forall fun op => op.fresh = ∅ := by
  simp only [List.Forall]; repeat' constructor

/-- Each operation of `opsC` touches TensorCore references only. -/
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., binary_bufs_sub .., binary_bufs_sub .., unary_bufs_sub .., unary_bufs_sub .., binary_bufs_sub ..,
    binary_bufs_sub .., binary_bufs_sub .., nullary_bufs_sub .., unary_bufs_sub .., binary_bufs_sub ..⟩

/-- No operation of `opsC` allocates a buffer. -/
theorem opsC_fresh : (opsC : List (HloOp τ sig (Elt F))).Forall fun op => op.fresh = ∅ := by
  simp only [List.Forall]; repeat' constructor

/-- Each operation of `opsD` touches TensorCore references only. -/
theorem opsD_sub : (opsD : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., binary_bufs_sub .., unary_bufs_sub .., unary_bufs_sub ..,
    binary_bufs_sub .., reshape_bufs_sub ..⟩

/-- No operation of `opsD` allocates a buffer. -/
theorem opsD_fresh : (opsD : List (HloOp τ sig (Elt F))).Forall fun op => op.fresh = ∅ := by
  simp only [List.Forall]; repeat' constructor

/-- The four stretches' side conditions, as the whole list's. -/
theorem ops_sub : (ops : List (HloOp τ sig (Elt F))).Forall fun op => op.bufs ⊆ tcRefs τ sig :=
  List.forall_append.mpr ⟨opsA_sub, List.forall_append.mpr ⟨opsB_sub, List.forall_append.mpr ⟨opsC_sub, opsD_sub⟩⟩⟩

theorem ops_fresh : (ops : List (HloOp τ sig (Elt F))).Forall fun op => op.fresh = ∅ :=
  List.forall_append.mpr ⟨opsA_fresh, List.forall_append.mpr ⟨opsB_fresh, List.forall_append.mpr ⟨opsC_fresh, opsD_fresh⟩⟩⟩

set_option maxRecDepth 16384 in
set_option maxHeartbeats 4000000 in
/-- @main is that straight line: the two windows and the callees' definitions unfolded at their calls, both sides are
    one chain of `hlo` steps once sequencing is reassociated. -/
theorem main_eq (c : Dev nD) : main (F := F) c = seq ops := by
  simp only [main, main_part0, main_part1, fn_take.body, fn_take_0.body, fn_where.body, fn_relu.body, bind_assoc, pure_bind]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => List.forall_iff_forall_mem.mp ops_fresh op h)

end Cert.ReferenceIdeal.Hand

end
-- ==== Proof.RefTerm.lean ====
/-
  The reference network as named functions of its operands: the rows of the edge list, the gather of the source rows,
  the sum over each node's in-edges, the in-degree divisor, one layer on whole arrays, the sum over each graph's nodes,
  the graph-size divisor and the linear head, and their composition over three layers. Every function is the
  composition of the program's own operations in the order it applies them; nothing is computed here.
-/
import proofs.«115632_j11665131176188_1_alg».proof.Proof.Gen.ReferenceIdeal

noncomputable section

namespace Cert.ReferenceIdeal.Hand

open Cert.ReferenceIdeal Cert.ReferenceIdeal.Facts₀ Idealize.ShloMosaic

variable {F : FTy → Type} [FloatOps F]

/-- The sources' row of the edge list, as a vector. -/
def srcOf (ei : IVec S2x600000 32) : IVec S600000 32 :=
  fun i => shapeCast S600000 (extractStridedSlice S1x600000 ![0, 0] ei slices_S2x600000_S1x600000_0_0) shapeCasts_S1x600000_S600000 i

/-- The destinations' row of the edge list, as a vector. -/
def dstOf (ei : IVec S2x600000 32) : IVec S600000 32 :=
  fun i => shapeCast S600000 (extractStridedSlice S1x600000 ![1, 0] ei slices_S2x600000_S1x600000_1_0) shapeCasts_S1x600000_S600000 i

/-- Row `src e` of `x` for every edge `e` (a negative index counted from the end; a row outside the array read as the
    fill value). -/
def takeV (x : FVec F S50000x128 .f32) (src : IVec S600000 32) : FVec F S600000x128 .f32 :=
  have v0 : IVec S600000 32 := broadcastInDim S600000 ![] bcast_S_S600000 (constantI S_ 32 0#32)
  have v1 : IVec S600000 1 := cmpi .slt src v0
  have v2 : IVec S600000 32 := broadcastInDim S600000 ![] bcast_S_S600000 (constantI S_ 32 50000#32)
  have v3 : IVec S600000 32 := addi src v2
  have v4 : IVec S600000 32 := select v1 v3 src
  have v5 : IVec S600000x1 32 := broadcastInDim S600000x1 ![0] bcast_S600000_S600000x1_0 v4
  have v6 : IVec S600000x1 32 := broadcastInDim S600000x1 ![] bcast_S_S600000x1 (constantI S_ 32 0#32)
  have v7 : IVec S600000x1 1 := cmpi .sge v5 v6
  have v8 : IVec S1x1 32 := broadcastInDim S1x1 ![1] bcast_S1_S1x1_1 (constantI S1 32 49999#32)
  have v9 : IVec S600000x1 32 := broadcastInDim S600000x1 ![0, 1] bcast_S1x1_S600000x1_0_1 v8
  have v10 : IVec S600000x1 1 := cmpi .sle v5 v9
  have v11 : IVec S600000x1 1 := andi v7 v10
  have v12 : IVec S600000 1 := Host.reduce IntOp.andi v11 (constantI S_ 1 1#1) reducesTo_S600000x1_S600000_d1 h_S_
  have v13 : FVec F S600000x128 .f32 := Host.gather gather_S50000x128_S600000x1_S600000x128_1_0_n_n_0_1_1128 x v5
  have v14 : IVec S600000x128 1 := broadcastInDim S600000x128 ![0] bcast_S600000_S600000x128_0 v12
  have v15 : FVec F S600000x128 .f32 := broadcastInDim S600000x128 ![] bcast_S_S600000x128 (constant S_ .f32 0x7FC00000#32)
  select v14 v13 v15

/-- For every node the sum of the rows `takeV x src` of the edges that end at it. -/
def aggSum (x : FVec F S50000x128 .f32) (src dst : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) (takeV x src)

/-- For every graph the sum of the rows of `x` of the nodes in it. -/
def poolSum (x : FVec F S50000x128 .f32) (batch : IVec S50000 32) : FVec F S500x128 .f32 :=
  Host.scatterAdd scatter_S500x128_S50000x1_S50000x128_1_0_0_1
    (broadcastInDim S500x128 ![] bcast_S_S500x128 (constant S_ .f32 0x00000000#32))
    (broadcastInDim S50000x1 ![0] bcast_S50000_S50000x1_0 batch) x

/-- The linear head: the pooled features through the output weights, plus the output bias, as a vector over the graphs. -/
def headOf (g : FVec F S500x128 .f32) (Wout : FVec F S128x1 .f32) (bout : FVec F S1 .f32) : FVec F S500 .f32 :=
  fun i => shapeCast S500 (addf (Host.dotGeneral dot_S500x128_S128x1_S500x1_1_0_0_1_n_n none g Wout)
    (broadcastInDim S500x1 ![0, 1] bcast_S1x1_S500x1_0_1 (broadcastInDim S1x1 ![1] bcast_S1_S1x1_1 bout))) shapeCasts_S500x1_S500 i

/-- The divisor of the node mean: the number of edges ending at each node, at least one, spread along the features. -/
def denNodes (dst : IVec S600000 32) : FVec F S50000x128 .f32 :=
  broadcastInDim S50000x128 ![0, 1] bcast_S50000x1_S50000x128_0_1
    (maximumf (Host.scatterAdd scatter_S50000x1_S600000x1_S600000x1_1_0_0_1
        (broadcastInDim S50000x1 ![] bcast_S_S50000x1 (constant S_ .f32 0x00000000#32))
        (broadcastInDim S600000x1 ![0] bcast_S600000_S600000x1_0 dst)
        (broadcastInDim S600000x1 ![] bcast_S_S600000x1 (constant S_ .f32 0x3F800000#32)))
      (broadcastInDim S50000x1 ![] bcast_S_S50000x1 (constant S_ .f32 0x3F800000#32)))

/-- The divisor of the graph mean: the number of nodes of each graph, at least one, spread along the features. -/
def denGraphs (batch : IVec S50000 32) : FVec F S500x128 .f32 :=
  broadcastInDim S500x128 ![0, 1] bcast_S500x1_S500x128_0_1
    (maximumf (Host.scatterAdd scatter_S500x1_S50000x1_S50000x1_1_0_0_1
        (broadcastInDim S500x1 ![] bcast_S_S500x1 (constant S_ .f32 0x00000000#32))
        (broadcastInDim S50000x1 ![0] bcast_S50000_S50000x1_0 batch)
        (broadcastInDim S50000x1 ![] bcast_S_S50000x1 (constant S_ .f32 0x3F800000#32)))
      (broadcastInDim S500x1 ![] bcast_S_S500x1 (constant S_ .f32 0x3F800000#32)))

/-- The mean over each node's in-edges of the gathered rows. -/
def aggMean (x : FVec F S50000x128 .f32) (src dst : IVec S600000 32) : FVec F S50000x128 .f32 :=
  Host.divf (aggSum x src dst) (denNodes dst)

/-- One layer on whole arrays: the aggregate through the left weights plus the bias, plus the nodes' own rows through the
    right weights, and the positive part. -/
def layerR (x a : FVec F S50000x128 .f32) (Wl : FVec F S128x128 .f32) (bl : FVec F S128 .f32) (Wr : FVec F S128x128 .f32) :
    FVec F S50000x128 .f32 :=
  maximumf
    (addf (addf (Host.dotGeneral dot_S50000x128_S128x128_S50000x128_1_0_0_1_n_n none a Wl)
        (broadcastInDim S50000x128 ![0, 1] bcast_S1x128_S50000x128_0_1 (broadcastInDim S1x128 ![1] bcast_S128_S1x128_1 bl)))
      (Host.dotGeneral dot_S50000x128_S128x128_S50000x128_1_0_0_1_n_n none x Wr))
    (broadcastInDim S50000x128 ![] bcast_S_S50000x128 (constant S_ .f32 0x00000000#32))

/-- The network's output from the last layer's features: the graph means through the linear head. -/
def outOf (x : FVec F S50000x128 .f32) (batch : IVec S50000 32) (Wout : FVec F S128x1 .f32) (bout : FVec F S1 .f32) : FVec F S500 .f32 :=
  headOf (Host.divf (poolSum x batch) (denGraphs batch)) Wout bout

/-- The whole reference network as one function of its fourteen arguments. -/
def refOut (x : FVec F S50000x128 .f32) (ei : IVec S2x600000 32) (batch : IVec S50000 32)
    (Wl0 : FVec F S128x128 .f32) (bl0 : FVec F S128 .f32) (Wr0 : FVec F S128x128 .f32)
    (Wl1 : FVec F S128x128 .f32) (bl1 : FVec F S128 .f32) (Wr1 : FVec F S128x128 .f32)
    (Wl2 : FVec F S128x128 .f32) (bl2 : FVec F S128 .f32) (Wr2 : FVec F S128x128 .f32)
    (Wout : FVec F S128x1 .f32) (bout : FVec F S1 .f32) : FVec F S500 .f32 :=
  have x1 : FVec F S50000x128 .f32 := layerR x (aggMean x (srcOf ei) (dstOf ei)) Wl0 bl0 Wr0
  have x2 : FVec F S50000x128 .f32 := layerR x1 (aggMean x1 (srcOf ei) (dstOf ei)) Wl1 bl1 Wr1
  have x3 : FVec F S50000x128 .f32 := layerR x2 (aggMean x2 (srcOf ei) (dstOf ei)) Wl2 bl2 Wr2
  outOf x3 batch Wout bout

end Cert.ReferenceIdeal.Hand

end
-- ==== Proof.RefRead.lean ====
/- What @main leaves in its result and its arguments, as the named functions of the arguments' contents: the fold of the
   operations' results read one stretch at a time, each stretch's result the layer's function of the buffers it reads,
   and every buffer a stretch does not write left as it was. -/
import proofs.«115632_j11665131176188_1_alg».proof.Proof.RefRun
import proofs.«115632_j11665131176188_1_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two lines folded one after the other are their concatenation folded as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffers the operations of `opsA` write: one each, in order. -/
abbrev WA : List (Ref sig .tc) :=
  [ main_v0, main_v1, main_v2, main_v3, main_call0_c, main_call0_v0, main_call0_v1, main_call0_c_0, main_call0_v2,
    main_call0_v3, main_call0_v4, main_call0_v5, main_call0_c_1, main_call0_c_2, main_call0_v6, main_call0_v7, main_call0_v8,
    main_call0_v9, main_call0_v10, main_call0_v11, main_call0_c_3, main_call0_v12, main_call0_v13, main_call0_v14,
    main_call0_cst, main_call0_v15, main_v4, main_cst, main_v5, main_v6, main_v7, main_cst_0, main_v8, main_cst_1, main_v9,
    main_v10, main_v11, main_cst_2, main_v12, main_v13, main_v14, main_v15, main_v16, main_v17, main_v18, main_v19, main_v20,
    main_v21, main_call1_cst, main_call1_v0, main_v22 ]

theorem opsA_writes : (opsA : List (HloOp τ sig (Elt F))).Forall fun op => op.writes ⊆ (WA.map (Proc.devRef (τ := τ) .tc)).toFinset := by
  simp only [List.Forall, nullary_writes, unary_writes, binary_writes, ternary_writes, reshape_writes, Finset.singleton_subset_iff,
    List.mem_toFinset]
  repeat' apply And.intro
  all_goals exact List.mem_map.mpr ⟨_, by decide, rfl⟩

/-- A buffer `opsA` does not write keeps its contents through it. -/
theorem opsA_frame (V : Valuation τ sig (Elt F)) (r : Ref sig .tc) (hr : r ∉ WA) :
    after opsA V (r : DevRef τ sig) = V (r : DevRef τ sig) :=
  after_of_writes_sub opsA V opsA_writes hr

/-- The buffers the operations of `opsB` write: one each, in order. -/
abbrev WB : List (Ref sig .tc) :=
  [ main_call2_c, main_call2_v0, main_call2_v1, main_call2_c_0, main_call2_v2, main_call2_v3, main_call2_v4, main_call2_v5,
    main_call2_c_1, main_call2_c_2, main_call2_v6, main_call2_v7, main_call2_v8, main_call2_v9, main_call2_v10, main_call2_v11,
    main_call2_c_3, main_call2_v12, main_call2_v13, main_call2_v14, main_call2_cst, main_call2_v15, main_v23, main_cst_3,
    main_v24, main_v25, main_v26, main_cst_4, main_v27, main_cst_5, main_v28, main_v29, main_v30, main_cst_6, main_v31,
    main_v32, main_v33, main_v34, main_v35, main_v36, main_v37, main_v38, main_v39, main_v40, main_call3_cst, main_call3_v0,
    main_v41 ]

theorem opsB_writes : (opsB : List (HloOp τ sig (Elt F))).Forall fun op => op.writes ⊆ (WB.map (Proc.devRef (τ := τ) .tc)).toFinset := by
  simp only [List.Forall, nullary_writes, unary_writes, binary_writes, ternary_writes, reshape_writes, Finset.singleton_subset_iff,
    List.mem_toFinset]
  repeat' apply And.intro
  all_goals exact List.mem_map.mpr ⟨_, by decide, rfl⟩

/-- A buffer `opsB` does not write keeps its contents through it. -/
theorem opsB_frame (V : Valuation τ sig (Elt F)) (r : Ref sig .tc) (hr : r ∉ WB) :
    after opsB V (r : DevRef τ sig) = V (r : DevRef τ sig) :=
  after_of_writes_sub opsB V opsB_writes hr

/-- The buffers the operations of `opsC` write: one each, in order. -/
abbrev WC : List (Ref sig .tc) :=
  [ main_call4_c, main_call4_v0, main_call4_v1, main_call4_c_0, main_call4_v2, main_call4_v3, main_call4_v4, main_call4_v5,
    main_call4_c_1, main_call4_c_2, main_call4_v6, main_call4_v7, main_call4_v8, main_call4_v9, main_call4_v10, main_call4_v11,
    main_call4_c_3, main_call4_v12, main_call4_v13, main_call4_v14, main_call4_cst, main_call4_v15, main_v42, main_cst_7,
    main_v43, main_v44, main_v45, main_cst_8, main_v46, main_cst_9, main_v47, main_v48, main_v49, main_cst_10, main_v50,
    main_v51, main_v52, main_v53, main_v54, main_v55, main_v56, main_v57, main_v58, main_v59, main_call5_cst, main_call5_v0,
    main_v60 ]

theorem opsC_writes : (opsC : List (HloOp τ sig (Elt F))).Forall fun op => op.writes ⊆ (WC.map (Proc.devRef (τ := τ) .tc)).toFinset := by
  simp only [List.Forall, nullary_writes, unary_writes, binary_writes, ternary_writes, reshape_writes, Finset.singleton_subset_iff,
    List.mem_toFinset]
  repeat' apply And.intro
  all_goals exact List.mem_map.mpr ⟨_, by decide, rfl⟩

/-- A buffer `opsC` does not write keeps its contents through it. -/
theorem opsC_frame (V : Valuation τ sig (Elt F)) (r : Ref sig .tc) (hr : r ∉ WC) :
    after opsC V (r : DevRef τ sig) = V (r : DevRef τ sig) :=
  after_of_writes_sub opsC V opsC_writes hr

/-- The buffers the operations of `opsD` write: one each, in order. -/
abbrev WD : List (Ref sig .tc) :=
  [ main_cst_11, main_v61, main_v62, main_v63, main_cst_12, main_v64, main_cst_13, main_v65, main_v66, main_v67, main_cst_14,
    main_v68, main_v69, main_v70, main_v71, main_v72, main_v73, main_v74, main_v75, main_v76 ]

theorem opsD_writes : (opsD : List (HloOp τ sig (Elt F))).Forall fun op => op.writes ⊆ (WD.map (Proc.devRef (τ := τ) .tc)).toFinset := by
  simp only [List.Forall, nullary_writes, unary_writes, binary_writes, ternary_writes, reshape_writes, Finset.singleton_subset_iff,
    List.mem_toFinset]
  repeat' apply And.intro
  all_goals exact List.mem_map.mpr ⟨_, by decide, rfl⟩

/-- A buffer `opsD` does not write keeps its contents through it. -/
theorem opsD_frame (V : Valuation τ sig (Elt F)) (r : Ref sig .tc) (hr : r ∉ WD) :
    after opsD V (r : DevRef τ sig) = V (r : DevRef τ sig) :=
  after_of_writes_sub opsD V opsD_writes hr

attribute [local irreducible] Host.gather Host.scatterAdd Host.reduce in
set_option maxRecDepth 16384 in
set_option maxHeartbeats 4000000 in
/-- The first stretch leaves the sources' row in `%1`. -/
theorem opsA_v1 (V : Valuation τ sig (Elt F)) :
    after opsA V (main_v1 : DevRef τ sig) = srcOf (V (main_arg1 : DevRef τ sig)) := by
  simp only [after_cons, after_nil]
  rfl

attribute [local irreducible] Host.gather Host.scatterAdd Host.reduce in
set_option maxRecDepth 16384 in
set_option maxHeartbeats 4000000 in
/-- The first stretch leaves the destinations' row in `%3`. -/
theorem opsA_v3 (V : Valuation τ sig (Elt F)) :
    after opsA V (main_v3 : DevRef τ sig) = dstOf (V (main_arg1 : DevRef τ sig)) := by
  simp only [after_cons, after_nil]
  rfl

attribute [local irreducible] Host.gather Host.scatterAdd Host.reduce in
set_option maxRecDepth 16384 in
set_option maxHeartbeats 4000000 in
/-- The first stretch leaves the first layer's output in `%22`: the fold unrolled, each operation's result decides
    whether the buffer read is the one it writes, the typed references' casts are the identity at these literal
    references; the gather, the scatter-add and the reduction stay folded. -/
theorem opsA_v22 (V : Valuation τ sig (Elt F)) :
    after opsA V (main_v22 : DevRef τ sig)
      = layerR (V (main_arg0 : DevRef τ sig))
          (aggMean (V (main_arg0 : DevRef τ sig)) (srcOf (V (main_arg1 : DevRef τ sig))) (dstOf (V (main_arg1 : DevRef τ sig))))
          (V (main_arg3 : DevRef τ sig)) (V (main_arg4 : DevRef τ sig)) (V (main_arg5 : DevRef τ sig)) := by
  simp only [after_cons, after_nil]
  rfl

attribute [local irreducible] Host.gather Host.scatterAdd Host.reduce in
set_option maxRecDepth 16384 in
set_option maxHeartbeats 4000000 in
/-- The second stretch leaves the second layer's output in `%41`, a function of `%22`, `%1`, `%3` and its weights. -/
theorem opsB_v41 (V : Valuation τ sig (Elt F)) :
    after opsB V (main_v41 : DevRef τ sig)
      = layerR (V (main_v22 : DevRef τ sig))
          (aggMean (V (main_v22 : DevRef τ sig)) (V (main_v1 : DevRef τ sig)) (V (main_v3 : DevRef τ sig)))
          (V (main_arg6 : DevRef τ sig)) (V (main_arg7 : DevRef τ sig)) (V (main_arg8 : DevRef τ sig)) := by
  simp only [after_cons, after_nil]
  rfl

attribute [local irreducible] Host.gather Host.scatterAdd Host.reduce in
set_option maxRecDepth 16384 in
set_option maxHeartbeats 4000000 in
/-- The third stretch leaves the third layer's output in `%60`, a function of `%41`, `%1`, `%3` and its weights. -/
theorem opsC_v60 (V : Valuation τ sig (Elt F)) :
    after opsC V (main_v60 : DevRef τ sig)
      = layerR (V (main_v41 : DevRef τ sig))
          (aggMean (V (main_v41 : DevRef τ sig)) (V (main_v1 : DevRef τ sig)) (V (main_v3 : DevRef τ sig)))
          (V (main_arg9 : DevRef τ sig)) (V (main_arg10 : DevRef τ sig)) (V (main_arg11 : DevRef τ sig)) := by
  simp only [after_cons, after_nil]
  rfl

attribute [local irreducible] Host.gather Host.scatterAdd Host.reduce in
set_option maxRecDepth 16384 in
set_option maxHeartbeats 4000000 in
/-- The last stretch leaves the network's output in `%76`, a function of `%60`, the graph index and the head's weights. -/
theorem opsD_v76 (V : Valuation τ sig (Elt F)) :
    after opsD V (main_v76 : DevRef τ sig)
      = outOf (V (main_v60 : DevRef τ sig)) (V (main_arg2 : DevRef τ sig)) (V (main_arg12 : DevRef τ sig)) (V (main_arg13 : DevRef τ sig)) := by
  simp only [after_cons, after_nil]
  rfl

/-- The whole fold is the four stretches' folds, one after the other. -/
theorem ops_split (V : Valuation τ sig (Elt F)) :
    after ops V = after opsD (after opsC (after opsB (after opsA V))) := by
  show after (opsA ++ (opsB ++ (opsC ++ opsD))) V = _
  rw [after_append, after_append, after_append]

/-- The result buffer after the whole line: the three layers and the head composed, each stretch read at the valuation
    the stretches before it leave, the buffers a stretch reads but an earlier one does not write walked back to `V`. -/
theorem ops_v76 (V : Valuation τ sig (Elt F)) :
    after ops V (main_v76 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_split, opsD_v76, opsC_v60,
    opsC_frame _ main_arg2 (by decide), opsC_frame _ main_arg12 (by decide), opsC_frame _ main_arg13 (by decide),
    opsB_v41, opsB_frame _ main_v1 (by decide), opsB_frame _ main_v3 (by decide),
    opsB_frame _ main_arg9 (by decide), opsB_frame _ main_arg10 (by decide), opsB_frame _ main_arg11 (by decide),
    opsB_frame _ main_arg2 (by decide), opsB_frame _ main_arg12 (by decide), opsB_frame _ main_arg13 (by decide),
    opsA_v22, opsA_v1, opsA_v3,
    opsA_frame _ main_arg6 (by decide), opsA_frame _ main_arg7 (by decide), opsA_frame _ main_arg8 (by decide),
    opsA_frame _ main_arg9 (by decide), opsA_frame _ main_arg10 (by decide), opsA_frame _ main_arg11 (by decide),
    opsA_frame _ main_arg2 (by decide), opsA_frame _ main_arg12 (by decide), opsA_frame _ main_arg13 (by decide)]
  rfl

/-- A buffer no stretch writes is, after the whole line, as it was. -/
theorem ops_frame (V : Valuation τ sig (Elt F)) (r : Ref sig .tc) (hA : r ∉ WA) (hB : r ∉ WB) (hC : r ∉ WC) (hD : r ∉ WD) :
    after ops V (r : DevRef τ sig) = V (r : DevRef τ sig) := by
  rw [ops_split, opsD_frame _ r hD, opsC_frame _ r hC, opsB_frame _ r hB, opsA_frame _ r hA]

/-- On every device, for any float values, from any memory with zero counters: every weakly fair execution of @main
    terminates with the result buffer at the network's function of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
          = refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v76).trans (ops_v76 _),
      (h c main_arg0).trans (ops_frame _ main_arg0 (by decide) (by decide) (by decide) (by decide)),
      (h c main_arg1).trans (ops_frame _ main_arg1 (by decide) (by decide) (by decide) (by decide)),
      (h c main_arg2).trans (ops_frame _ main_arg2 (by decide) (by decide) (by decide) (by decide)),
      (h c main_arg3).trans (ops_frame _ main_arg3 (by decide) (by decide) (by decide) (by decide)),
      (h c main_arg4).trans (ops_frame _ main_arg4 (by decide) (by decide) (by decide) (by decide)),
      (h c main_arg5).trans (ops_frame _ main_arg5 (by decide) (by decide) (by decide) (by decide)),
      (h c main_arg6).trans (ops_frame _ main_arg6 (by decide) (by decide) (by decide) (by decide)),
      (h c main_arg7).trans (ops_frame _ main_arg7 (by decide) (by decide) (by decide) (by decide)),
      (h c main_arg8).trans (ops_frame _ main_arg8 (by decide) (by decide) (by decide) (by decide)),
      (h c main_arg9).trans (ops_frame _ main_arg9 (by decide) (by decide) (by decide) (by decide)),
      (h c main_arg10).trans (ops_frame _ main_arg10 (by decide) (by decide) (by decide) (by decide)),
      (h c main_arg11).trans (ops_frame _ main_arg11 (by decide) (by decide) (by decide) (by decide)),
      (h c main_arg12).trans (ops_frame _ main_arg12 (by decide) (by decide) (by decide) (by decide)),
      (h c main_arg13).trans (ops_frame _ main_arg13 (by decide) (by decide) (by decide) (by decide))⟩)
    (run_main m ρ)

end Cert.ReferenceIdeal.Hand

end
-- ==== Proof.BridgeShared.lean ====
/-
  The two programs apply the same host operations around the layers: the rows of the edge list, the gather of the
  source rows, the sum over each node's in-edges, the sum over each graph's nodes and the linear head are written once
  in each program's vocabulary, with the same shapes, the same dimension numbers and the same operations in the same
  order. They are the same functions.
-/
import proofs.«115632_j11665131176188_1_alg».proof.Proof.KerTerm
import proofs.«115632_j11665131176188_1_alg».proof.Proof.RefTerm

namespace Cert.Sage.Bridge

open Idealize.ShloMosaic

variable {F : FTy → Type} [FloatOps F]

/-- The sources' row of the edge list is the same vector in both programs. -/
theorem srcOf_eq (ei : IVec Cert.KernelIdeal.S2x600000 32) :
    Cert.KernelIdeal.Hand.srcOf ei = Cert.ReferenceIdeal.Hand.srcOf ei := rfl

/-- The destinations' row of the edge list is the same vector in both programs. -/
theorem dstOf_eq (ei : IVec Cert.KernelIdeal.S2x600000 32) :
    Cert.KernelIdeal.Hand.dstOf ei = Cert.ReferenceIdeal.Hand.dstOf ei := rfl

/-- The gather of the source rows is the same array in both programs. -/
theorem takeV_eq (x : FVec F Cert.KernelIdeal.S50000x128 .f32) (s : IVec Cert.KernelIdeal.S600000 32) :
    Cert.KernelIdeal.Hand.takeV x s = Cert.ReferenceIdeal.Hand.takeV x s := rfl

/-- The sum over each node's in-edges is the same array in both programs. -/
theorem aggSum_eq (x : FVec F Cert.KernelIdeal.S50000x128 .f32) (s d : IVec Cert.KernelIdeal.S600000 32) :
    Cert.KernelIdeal.Hand.aggSum x s d = Cert.ReferenceIdeal.Hand.aggSum x s d := rfl

/-- The sum over each graph's nodes is the same array in both programs. -/
theorem poolSum_eq (x : FVec F Cert.KernelIdeal.S50000x128 .f32) (b : IVec Cert.KernelIdeal.S50000 32) :
    Cert.KernelIdeal.Hand.poolSum x b = Cert.ReferenceIdeal.Hand.poolSum x b := rfl

/-- The linear head is the same function in both programs. -/
theorem headOf_eq (g : FVec F Cert.KernelIdeal.S500x128 .f32) (W : FVec F Cert.KernelIdeal.S128x1 .f32)
    (b : FVec F Cert.KernelIdeal.S1 .f32) :
    Cert.KernelIdeal.Hand.headOf g W b = Cert.ReferenceIdeal.Hand.headOf g W b := rfl

end Cert.Sage.Bridge
-- ==== Proof.ScatterCol.lean ====
/-
  Counting along a column: a rank-1 accumulating scatter and the rank-2 accumulating scatter over the
  same start indices agree, element r of the one being element (r, 0) of the other.

  Both scatters read their start index on operand axis 0 from the index array at (e, 0); the rank-1
  one has no window axis, the rank-2 one a window axis of extent 1, whose coordinate is always 0. So
  update e of the one and update (e, 0) of the other land on rows that are equal, under the same
  condition (the start, read signed, is inside the operand). The sums of the updates landing on one
  row are then equal term by term along the bijection e ↦ (e, 0).
-/
import proofs.«115632_j11665131176188_1_alg».proof.Proof.Gen.KernelIdeal
import proofs.«115632_j11665131176188_1_alg».proof.Proof.Gen.ReferenceIdeal
import Idealize.ShloMosaic.PureOps.Ideal
import Idealize.ShloMosaic.Lib.ValueIdx

open scoped BigOperators
open Idealize.ShloMosaic Idealize.ShloMosaic.ValueIdx

namespace Cert.Sage.ScatterCol

/-- An update lands at operand index i exactly when, on every operand axis, the start plus the window
    coordinate is i's coordinate (as integers): the "inside the operand" condition is then i's own bounds. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have h1 := congrFun (Option.some.inj h) a
      have h2 := congrArg Fin.val h1
      simp only at h2
      have h3 := (hc a).1
      omega
    · exact absurd h (by simp)
  · intro h
    have hc : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hc]
    congr 1
    funext a
    apply Fin.ext
    simp only
    rw [h a]
    simp

section Generic
variable {n m : Nat}

/-- The dimension numbers of the rank-1 accumulation: operand [n], start indices [m, 1] (the index
    vector on axis 1), updates [m] with no window axis. -/
abbrev D1 (wf : ScatterDims.WF (⟨1, ![n]⟩ : Shape) ⟨2, ![m, 1]⟩ ⟨1, ![m]⟩ [] [0] [0] 1) :
    ScatterDims (⟨1, ![n]⟩ : Shape) ⟨2, ![m, 1]⟩ ⟨1, ![m]⟩ := ⟨[], [0], [0], 1, wf⟩

/-- The dimension numbers of the rank-2 accumulation: operand [n, 1], start indices [m, 1], updates
    [m, 1] whose axis 1 is the window axis. -/
abbrev D2 (wf : ScatterDims.WF (⟨2, ![n, 1]⟩ : Shape) ⟨2, ![m, 1]⟩ ⟨2, ![m, 1]⟩ [1] [0] [0] 1) :
    ScatterDims (⟨2, ![n, 1]⟩ : Shape) ⟨2, ![m, 1]⟩ ⟨2, ![m, 1]⟩ := ⟨[1], [0], [0], 1, wf⟩

variable (wf1 : ScatterDims.WF (⟨1, ![n]⟩ : Shape) ⟨2, ![m, 1]⟩ ⟨1, ![m]⟩ [] [0] [0] 1)
variable (wf2 : ScatterDims.WF (⟨2, ![n, 1]⟩ : Shape) ⟨2, ![m, 1]⟩ ⟨2, ![m, 1]⟩ [1] [0] [0] 1)

/-- Rank 1: update e reads its start index at (e, 0). -/
theorem D1_siIdx (j : (⟨1, ![m]⟩ : Shape).Idx) (c : Fin (D1 (n := n) wf1).scatterDimsToOperandDims.length) :
    (D1 wf1).siIdx j c = ix2 (j 0) 0 := by
  funext b
  match b with
  | ⟨0, _⟩ => exact Fin.ext rfl
  | ⟨1, _⟩ =>
    apply Fin.ext
    have hc : c.val < 1 := c.isLt
    show c.val = 0
    omega

/-- Rank 1: the start on the operand's one axis is the index array at (e, 0), read signed. -/
theorem D1_start (j : (⟨1, ![m]⟩ : Shape).Idx) (idx : IVec (⟨2, ![m, 1]⟩ : Shape) 32) (a : Fin 1) :
    (D1 (n := n) wf1).start j idx a = (idx (ix2 (j 0) 0)).toInt := by
  obtain rfl : a = 0 := Subsingleton.elim _ _
  unfold ScatterDims.start
  rw [dif_pos (List.mem_singleton.2 rfl), D1_siIdx]
  rfl

/-- Rank 1: no window axis, so the window coordinate is 0. -/
theorem D1_window (j : (⟨1, ![m]⟩ : Shape).Idx) (a : Fin 1) : (D1 (n := n) wf1).window j a = 0 := by
  obtain rfl : a = 0 := Subsingleton.elim _ _
  rfl

/-- Rank 1: update e lands on row r exactly when its start index, read signed, is r. -/
theorem D1_result_iff (j : (⟨1, ![m]⟩ : Shape).Idx) (idx : IVec (⟨2, ![m, 1]⟩ : Shape) 32) (i : (⟨1, ![n]⟩ : Shape).Idx) :
    (D1 wf1).resultIdx? j idx = some i ↔ (idx (ix2 (j 0) 0)).toInt = ((i 0).val : Int) := by
  rw [resultIdx?_eq_some_iff]
  constructor
  · intro h
    have := h 0
    rw [D1_start, D1_window] at this
    simpa using this
  · intro h a
    obtain rfl : a = 0 := Subsingleton.elim _ _
    rw [D1_start, D1_window]
    simpa using h

/-- Rank 2: update (e, c) reads its start index at (e, 0). -/
theorem D2_siIdx (j : (⟨2, ![m, 1]⟩ : Shape).Idx) (c : Fin (D2 (n := n) wf2).scatterDimsToOperandDims.length) :
    (D2 wf2).siIdx j c = ix2 (j 0) 0 := by
  funext b
  match b with
  | ⟨0, _⟩ => exact Fin.ext rfl
  | ⟨1, _⟩ =>
    apply Fin.ext
    have hc : c.val < 1 := c.isLt
    show c.val = 0
    omega

/-- Rank 2: the start on operand axis 0 is the index array at (e, 0), read signed … -/
theorem D2_start0 (j : (⟨2, ![m, 1]⟩ : Shape).Idx) (idx : IVec (⟨2, ![m, 1]⟩ : Shape) 32) :
    (D2 (n := n) wf2).start j idx 0 = (idx (ix2 (j 0) 0)).toInt := by
  unfold ScatterDims.start
  rw [dif_pos (List.mem_singleton.2 rfl), D2_siIdx]
  rfl

/-- … and 0 on axis 1, which the index vector does not name. -/
theorem D2_start1 (j : (⟨2, ![m, 1]⟩ : Shape).Idx) (idx : IVec (⟨2, ![m, 1]⟩ : Shape) 32) :
    (D2 (n := n) wf2).start j idx 1 = 0 := rfl

/-- Rank 2: axis 0 is an inserted axis, window coordinate 0 … -/
theorem D2_window0 (j : (⟨2, ![m, 1]⟩ : Shape).Idx) : (D2 (n := n) wf2).window j 0 = 0 := rfl

/-- … and axis 1 carries the update's window coordinate, which is below the extent 1. -/
theorem D2_window1 (j : (⟨2, ![m, 1]⟩ : Shape).Idx) : (D2 (n := n) wf2).window j 1 = 0 := by
  have h : (j 1).val < 1 := (j 1).isLt
  have h1 : (D2 (n := n) wf2).window j 1 = (j 1).val := rfl
  omega

/-- Rank 2: update (e, c) lands on (r, c') exactly when its start index, read signed, is r. -/
theorem D2_result_iff (j : (⟨2, ![m, 1]⟩ : Shape).Idx) (idx : IVec (⟨2, ![m, 1]⟩ : Shape) 32)
    (i : (⟨2, ![n, 1]⟩ : Shape).Idx) :
    (D2 wf2).resultIdx? j idx = some i ↔ (idx (ix2 (j 0) 0)).toInt = ((i 0).val : Int) := by
  rw [resultIdx?_eq_some_iff]
  constructor
  · intro h
    have := h 0
    rw [D2_start0, D2_window0] at this
    simpa using this
  · intro h a
    match a with
    | ⟨0, _⟩ =>
      show (D2 wf2).start j idx 0 + ((D2 wf2).window j 0 : Int) = ((i 0).val : Int)
      rw [D2_start0, D2_window0]
      simpa using h
    | ⟨1, _⟩ =>
      show (D2 wf2).start j idx 1 + ((D2 wf2).window j 1 : Int) = ((i 1).val : Int)
      rw [D2_start1, D2_window1]
      have h1 : (i 1).val < 1 := (i 1).isLt
      omega

/-- The updates of the two scatters correspond along e ↦ (e, 0): the second axis has extent 1. -/
def colEquiv (m : Nat) : (⟨1, ![m]⟩ : Shape).Idx ≃ (⟨2, ![m, 1]⟩ : Shape).Idx where
  toFun j := ix2 (j 0) 0
  invFun k := ix1 (k 0)
  left_inv j := (eq_ix1 j).symm
  right_inv k := by
    have h : (k 1).val < 1 := (k 1).isLt
    have h0 : k 1 = (0 : Fin 1) := Fin.ext (by show (k 1).val = 0; omega)
    refine (congrArg (fun t : Fin 1 => ix2 (k 0) t) h0.symm).trans (eq_ix2 k).symm

/-- The two accumulations agree along the column, for any extents. -/
theorem scatter_col (x1 : FVec Ideal (⟨1, ![n]⟩ : Shape) .f32) (x2 : FVec Ideal (⟨2, ![n, 1]⟩ : Shape) .f32)
    (u1 : FVec Ideal (⟨1, ![m]⟩ : Shape) .f32) (u2 : FVec Ideal (⟨2, ![m, 1]⟩ : Shape) .f32)
    (idx : IVec (⟨2, ![m, 1]⟩ : Shape) 32)
    (hx : ∀ r : Fin n, x1 (ix1 r) = x2 (ix2 r 0)) (hu : ∀ e : Fin m, u1 (ix1 e) = u2 (ix2 e 0)) (r : Fin n) :
    Host.scatterAdd (F := Ideal) (D1 wf1) x1 idx u1 (ix1 r) = Host.scatterAdd (F := Ideal) (D2 wf2) x2 idx u2 (ix2 r 0) := by
  simp only [Host.scatterAdd, Ideal.hostScatterAdd_def, Ideal.hostScatterAdd]
  rw [hx r]
  congr 1
  refine Finset.sum_equiv (colEquiv m) (fun j => ?_) (fun j _ => ?_)
  · simp only [Finset.mem_filter, Finset.mem_univ, true_and]
    rw [D1_result_iff, D2_result_iff]
    exact Iff.rfl
  · exact (congrArg u1 (eq_ix1 j)).trans (hu (j 0))

end Generic

/-- The in-edge counts: element r of the rank-1 count is element (r, 0) of the rank-2 count. -/
theorem scatter_col_nodes (x1 : FVec Ideal Cert.KernelIdeal.S50000 .f32) (x2 : FVec Ideal Cert.ReferenceIdeal.S50000x1 .f32)
    (u1 : FVec Ideal Cert.KernelIdeal.S600000 .f32) (u2 : FVec Ideal Cert.ReferenceIdeal.S600000x1 .f32)
    (idx : IVec Cert.KernelIdeal.S600000x1 32)
    (hx : ∀ r : Fin 50000, x1 (ix1 r) = x2 (ix2 r 0)) (hu : ∀ e : Fin 600000, u1 (ix1 e) = u2 (ix2 e 0)) (r : Fin 50000) :
    Host.scatterAdd (F := Ideal) Cert.KernelIdeal.scatter_S50000_S600000x1_S600000_n_0_0_1 x1 idx u1 (ix1 r)
      = Host.scatterAdd (F := Ideal) Cert.ReferenceIdeal.scatter_S50000x1_S600000x1_S600000x1_1_0_0_1 x2 idx u2 (ix2 r 0) :=
  scatter_col (n := 50000) (m := 600000) Cert.KernelIdeal.scatter_S50000_S600000x1_S600000_n_0_0_1.wf
    Cert.ReferenceIdeal.scatter_S50000x1_S600000x1_S600000x1_1_0_0_1.wf x1 x2 u1 u2 idx hx hu r

/-- The pooling counts: element r of the rank-1 count is element (r, 0) of the rank-2 count. -/
theorem scatter_col_graphs (x1 : FVec Ideal Cert.KernelIdeal.S500 .f32) (x2 : FVec Ideal Cert.ReferenceIdeal.S500x1 .f32)
    (u1 : FVec Ideal Cert.KernelIdeal.S50000 .f32) (u2 : FVec Ideal Cert.ReferenceIdeal.S50000x1 .f32)
    (idx : IVec Cert.KernelIdeal.S50000x1 32)
    (hx : ∀ r : Fin 500, x1 (ix1 r) = x2 (ix2 r 0)) (hu : ∀ e : Fin 50000, u1 (ix1 e) = u2 (ix2 e 0)) (r : Fin 500) :
    Host.scatterAdd (F := Ideal) Cert.KernelIdeal.scatter_S500_S50000x1_S50000_n_0_0_1 x1 idx u1 (ix1 r)
      = Host.scatterAdd (F := Ideal) Cert.ReferenceIdeal.scatter_S500x1_S50000x1_S50000x1_1_0_0_1 x2 idx u2 (ix2 r 0) :=
  scatter_col (n := 500) (m := 50000) Cert.KernelIdeal.scatter_S500_S50000x1_S50000_n_0_0_1.wf
    Cert.ReferenceIdeal.scatter_S500x1_S50000x1_S50000x1_1_0_0_1.wf x1 x2 u1 u2 idx hx hu r

end Cert.Sage.ScatterCol
-- ==== Proof.BridgeDen.lean ====
/-
  The two programs' divisors of the means are the same arrays.

  The kernel program counts each node's in-edges as a vector of 50000 numbers (a rank-1 accumulation of ones), takes the
  maximum with one, and then spreads the vector to a column [50000, 1] and along the 128 features. The reference counts
  them as a column [50000, 1] from the start (a rank-2 accumulation of ones), takes the maximum with one there and
  spreads the column along the features. Entry (r, 0) of the kernel program's column is entry r of its vector, which is
  entry (r, 0) of the reference's column because the two accumulations agree along the column; the constants spread
  from one scalar read that scalar everywhere. The same holds for the graph sizes, with 500 graphs and 50000 nodes.
-/
import proofs.«115632_j11665131176188_1_alg».proof.Proof.KerTerm
import proofs.«115632_j11665131176188_1_alg».proof.Proof.RefTerm
import proofs.«115632_j11665131176188_1_alg».proof.Proof.ScatterCol
import Idealize.ShloMosaic.Lib.Pipeline.Value
import Idealize.ShloMosaic.Lib.ValueIdx

namespace Cert.Sage.Bridge

open Idealize.ShloMosaic Idealize.ShloMosaic.ValueIdx

/-- A scalar spread over a shape reads the scalar everywhere. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply ![] h x j ix0 (fun a => a.elim0)

/-- A vector of n entries spread to a column [n, 1] reads entry r at (r, c). -/
theorem bcast_col_apply {α : Type} {n : Nat} (h : (⟨1, ![n]⟩ : Shape).BroadcastsInDim ⟨2, ![n, 1]⟩ ![0])
    (v : (⟨1, ![n]⟩ : Shape).Idx → α) (r : Fin n) (c : Fin 1) (hn : ¬ (n = 1)) :
    broadcastInDim ⟨2, ![n, 1]⟩ ![0] h v (ix2 r c) = v (ix1 r) :=
  broadcastInDim_apply ![0] h v (ix2 r c) (ix1 r) (fun a => match a with | ⟨0, _⟩ => (if_neg hn).symm)

/-- The node divisor's column: the kernel program's spread vector is the reference's column. -/
theorem nodes_col (idx : IVec Cert.KernelIdeal.S600000x1 32) (cz co co' : FVec Ideal Cert.KernelIdeal.S_ .f32) :
    broadcastInDim Cert.KernelIdeal.S50000x1 ![0] Cert.KernelIdeal.Facts₀.bcast_S50000_S50000x1_0
      (maximumf (Host.scatterAdd Cert.KernelIdeal.scatter_S50000_S600000x1_S600000_n_0_0_1
          (broadcastInDim Cert.KernelIdeal.S50000 ![] Cert.KernelIdeal.Facts₀.bcast_S_S50000 cz) idx
          (broadcastInDim Cert.KernelIdeal.S600000 ![] Cert.KernelIdeal.Facts₀.bcast_S_S600000 co))
        (broadcastInDim Cert.KernelIdeal.S50000 ![] Cert.KernelIdeal.Facts₀.bcast_S_S50000 co'))
    = maximumf (Host.scatterAdd Cert.ReferenceIdeal.scatter_S50000x1_S600000x1_S600000x1_1_0_0_1
          (broadcastInDim Cert.ReferenceIdeal.S50000x1 ![] Cert.ReferenceIdeal.Facts₀.bcast_S_S50000x1 cz) idx
          (broadcastInDim Cert.ReferenceIdeal.S600000x1 ![] Cert.ReferenceIdeal.Facts₀.bcast_S_S600000x1 co))
        (broadcastInDim Cert.ReferenceIdeal.S50000x1 ![] Cert.ReferenceIdeal.Facts₀.bcast_S_S50000x1 co') := by
  funext i
  obtain ⟨r, c, rfl⟩ : ∃ r c, i = ix2 r c := ⟨i 0, i 1, eq_ix2 i⟩
  obtain rfl : c = 0 := Subsingleton.elim _ _
  refine (bcast_col_apply (n := 50000) _ _ r 0 (by norm_num)).trans ?_
  rw [maximumf_apply, maximumf_apply, bcast_scalar_apply, bcast_scalar_apply]
  rw [ScatterCol.scatter_col_nodes
    (broadcastInDim Cert.KernelIdeal.S50000 ![] Cert.KernelIdeal.Facts₀.bcast_S_S50000 cz)
    (broadcastInDim Cert.ReferenceIdeal.S50000x1 ![] Cert.ReferenceIdeal.Facts₀.bcast_S_S50000x1 cz)
    (broadcastInDim Cert.KernelIdeal.S600000 ![] Cert.KernelIdeal.Facts₀.bcast_S_S600000 co)
    (broadcastInDim Cert.ReferenceIdeal.S600000x1 ![] Cert.ReferenceIdeal.Facts₀.bcast_S_S600000x1 co) idx
    (fun r => by rw [bcast_scalar_apply, bcast_scalar_apply])
    (fun e => by rw [bcast_scalar_apply, bcast_scalar_apply]) r]

/-- The graph divisor's column: the kernel program's spread vector is the reference's column. -/
theorem graphs_col (idx : IVec Cert.KernelIdeal.S50000x1 32) (cz co co' : FVec Ideal Cert.KernelIdeal.S_ .f32) :
    broadcastInDim Cert.KernelIdeal.S500x1 ![0] Cert.KernelIdeal.Facts₀.bcast_S500_S500x1_0
      (maximumf (Host.scatterAdd Cert.KernelIdeal.scatter_S500_S50000x1_S50000_n_0_0_1
          (broadcastInDim Cert.KernelIdeal.S500 ![] Cert.KernelIdeal.Facts₀.bcast_S_S500 cz) idx
          (broadcastInDim Cert.KernelIdeal.S50000 ![] Cert.KernelIdeal.Facts₀.bcast_S_S50000 co))
        (broadcastInDim Cert.KernelIdeal.S500 ![] Cert.KernelIdeal.Facts₀.bcast_S_S500 co'))
    = maximumf (Host.scatterAdd Cert.ReferenceIdeal.scatter_S500x1_S50000x1_S50000x1_1_0_0_1
          (broadcastInDim Cert.ReferenceIdeal.S500x1 ![] Cert.ReferenceIdeal.Facts₀.bcast_S_S500x1 cz) idx
          (broadcastInDim Cert.ReferenceIdeal.S50000x1 ![] Cert.ReferenceIdeal.Facts₀.bcast_S_S50000x1 co))
        (broadcastInDim Cert.ReferenceIdeal.S500x1 ![] Cert.ReferenceIdeal.Facts₀.bcast_S_S500x1 co') := by
  funext i
  obtain ⟨r, c, rfl⟩ : ∃ r c, i = ix2 r c := ⟨i 0, i 1, eq_ix2 i⟩
  obtain rfl : c = 0 := Subsingleton.elim _ _
  refine (bcast_col_apply (n := 500) _ _ r 0 (by norm_num)).trans ?_
  rw [maximumf_apply, maximumf_apply, bcast_scalar_apply, bcast_scalar_apply]
  rw [ScatterCol.scatter_col_graphs
    (broadcastInDim Cert.KernelIdeal.S500 ![] Cert.KernelIdeal.Facts₀.bcast_S_S500 cz)
    (broadcastInDim Cert.ReferenceIdeal.S500x1 ![] Cert.ReferenceIdeal.Facts₀.bcast_S_S500x1 cz)
    (broadcastInDim Cert.KernelIdeal.S50000 ![] Cert.KernelIdeal.Facts₀.bcast_S_S50000 co)
    (broadcastInDim Cert.ReferenceIdeal.S50000x1 ![] Cert.ReferenceIdeal.Facts₀.bcast_S_S50000x1 co) idx
    (fun r => by rw [bcast_scalar_apply, bcast_scalar_apply])
    (fun e => by rw [bcast_scalar_apply, bcast_scalar_apply]) r]

/-- The divisor of the node mean is the same array in both programs. -/
theorem denNodes_eq (dst : IVec Cert.KernelIdeal.S600000 32) :
    Cert.KernelIdeal.Hand.denNodes (F := Ideal) dst = Cert.ReferenceIdeal.Hand.denNodes (F := Ideal) dst := by
  unfold Cert.KernelIdeal.Hand.denNodes Cert.ReferenceIdeal.Hand.denNodes
  rw [nodes_col]

/-- The divisor of the graph mean is the same array in both programs. -/
theorem denGraphs_eq (batch : IVec Cert.KernelIdeal.S50000 32) :
    Cert.KernelIdeal.Hand.denGraphs (F := Ideal) batch = Cert.ReferenceIdeal.Hand.denGraphs (F := Ideal) batch := by
  unfold Cert.KernelIdeal.Hand.denGraphs Cert.ReferenceIdeal.Hand.denGraphs
  rw [graphs_col]

end Cert.Sage.Bridge
-- ==== Proof.BridgeLayer.lean ====
/-
  The reference's layer on whole arrays, read entry by entry on the extended reals, is the layer of the specification.

  At node r and feature q the reference computes the maximum with zero of
      ((sum over k of a r k * Wl k q) + bl q) + (sum over k of x r k * Wr k q):
  a host product read at an entry is the plain sum over the one contracted coordinate, the bias is one row of 128
  features repeated over the 50000 rows, and the zero it is compared with is one scalar spread over the array. The
  specification writes each sum from a zero start and adds the bias last; on the extended reals addition is
  commutative and associative, so the two agree.
-/
import proofs.«115632_j11665131176188_1_alg».proof.Proof.RefTerm
import proofs.«115632_j11665131176188_1_alg».proof.Proof.Spec
import Idealize.ShloMosaic.PureOps.Ideal.Laws
import Idealize.ShloMosaic.Lib.ValueIdx
import Idealize.ShloMosaic.Lib.Pipeline.Value

noncomputable section

namespace Cert.Sage.Bridge

open Cert.ReferenceIdeal Cert.ReferenceIdeal.Facts₀ Idealize.ShloMosaic Idealize.ShloMosaic.ValueIdx

/-- The dimension numbers of the layer's two products: rows times contraction by contraction times columns. -/
abbrev nodesByCols : DotDims S50000x128 S128x128 S50000x128 := dot_S50000x128_S128x128_S50000x128_1_0_0_1_n_n

/-- A 50000 x 128 array times a 128 x 128 matrix, at row p and column q, is the sum over the contracted
    coordinate k of the products A p k * B k q. -/
theorem product_at (A : FVec Ideal S50000x128 .f32) (B : FVec Ideal S128x128 .f32) (p : Fin 50000) (q : Fin 128) :
    Host.dotGeneral nodesByCols none A B (ix2 p q) = ∑ k : Fin 128, A (ix2 p k) * B (ix2 k q) := by
  show FloatOps.dotGeneral nodesByCols none .single A B (ix2 p q) = _
  rw [Ideal.dotGeneral_apply, ← Equiv.sum_comp (contrEquiv1 nodesByCols 128 rfl rfl).symm]
  refine Finset.sum_congr rfl fun c _ => ?_
  have c2 := contrEquiv1_symm_val nodesByCols 128 rfl rfl c
  have l2 : nodesByCols.lhsIdx (ix2 p q) ((contrEquiv1 nodesByCols 128 rfl rfl).symm c) = ix2 p c := by
    funext ax; apply Fin.ext
    match ax with
    | ⟨0, _⟩ => simp [DotDims.lhsIdx, nodesByCols, dot_S50000x128_S128x128_S50000x128_1_0_0_1_n_n]; rfl
    | ⟨1, _⟩ => simp [DotDims.lhsIdx, nodesByCols, dot_S50000x128_S128x128_S50000x128_1_0_0_1_n_n]; exact c2
  have r2 : nodesByCols.rhsIdx (ix2 p q) ((contrEquiv1 nodesByCols 128 rfl rfl).symm c) = ix2 c q := by
    funext ax; apply Fin.ext
    match ax with
    | ⟨0, _⟩ => simp [DotDims.rhsIdx, nodesByCols, dot_S50000x128_S128x128_S50000x128_1_0_0_1_n_n]; exact c2
    | ⟨1, _⟩ => simp [DotDims.rhsIdx, nodesByCols, dot_S50000x128_S128x128_S50000x128_1_0_0_1_n_n]; rfl
  rw [l2, r2]

/-- The bias, one row of 128 features, repeated over the 50000 rows: at row r and feature q it is bl q. -/
theorem bias_at (bl : FVec Ideal S128 .f32) (r : Fin 50000) (q : Fin 128) :
    broadcastInDim S50000x128 ![0, 1] bcast_S1x128_S50000x128_0_1 (broadcastInDim S1x128 ![1] bcast_S128_S1x128_1 bl) (ix2 r q)
      = bl (ix1 q) := by
  refine (broadcastInDim_apply _ _ _ _ (ix2 (0 : Fin 1) q) (fun a => ?_)).trans ?_
  · match a with
    | ⟨0, _⟩ => exact (if_pos rfl).symm
    | ⟨1, _⟩ => exact (if_neg (by norm_num : ¬ ((128 : ℕ) = 1))).symm
  · refine broadcastInDim_apply _ _ _ _ (ix1 q) (fun a => ?_)
    match a with
    | ⟨0, _⟩ => exact (if_neg (by norm_num : ¬ ((128 : ℕ) = 1))).symm

/-- A scalar spread over a shape reads the scalar everywhere. -/
theorem scalar_spread_apply {α : Type} {t : Shape} (h : (⟨0, ![]⟩ : Shape).BroadcastsInDim t ![])
    (x : (⟨0, ![]⟩ : Shape).Idx → α) (j : t.Idx) : broadcastInDim t ![] h x j = x ix0 :=
  broadcastInDim_apply ![] h x j ix0 (fun a => a.elim0)

/-- The reference's layer is the specification's layer. -/
theorem layer_eq (x a : FVec Ideal S50000x128 .f32) (Wl : FVec Ideal S128x128 .f32) (bl : FVec Ideal S128 .f32)
    (Wr : FVec Ideal S128x128 .f32) :
    Cert.Sage.layer x a Wl bl Wr = Cert.ReferenceIdeal.Hand.layerR (F := Ideal) x a Wl bl Wr := by
  funext i
  obtain ⟨r, q, rfl⟩ : ∃ r q, i = ix2 r q := ⟨i 0, i 1, eq_ix2 i⟩
  unfold Cert.ReferenceIdeal.Hand.layerR
  rw [maximumf_apply, addf_apply, addf_apply, product_at, product_at, bias_at, scalar_spread_apply, constant_apply,
    Ideal.ofBits_zero_f32]
  show Cert.Sage.layerAt x a Wl bl Wr r q = _
  unfold Cert.Sage.layerAt
  rw [zero_add, zero_add, add_right_comm]

end Cert.Sage.Bridge

end
-- ==== Proof.Bridge.lean ====
/-
  The kernel program's network and the reference network are the same function of the fourteen arguments.

  Both apply, three times, the in-edge mean of the current features followed by the layer, and then the graph means
  through the linear head. The host operations shared by the two programs are the same functions, the divisors of the
  means are the same arrays although the two programs count along differently shaped arrays, and the layer of the
  specification is the reference's layer read entry by entry.
-/
import proofs.«115632_j11665131176188_1_alg».proof.Proof.KerOut
import proofs.«115632_j11665131176188_1_alg».proof.Proof.BridgeShared
import proofs.«115632_j11665131176188_1_alg».proof.Proof.BridgeDen
import proofs.«115632_j11665131176188_1_alg».proof.Proof.BridgeLayer

namespace Cert.Sage.Bridge

open Idealize.ShloMosaic

/-- The mean over each node's in-edges is the same array in both programs. -/
theorem aggMean_eq (x : FVec Ideal Cert.KernelIdeal.S50000x128 .f32) (s d : IVec Cert.KernelIdeal.S600000 32) :
    Cert.KernelIdeal.Hand.aggMean x s d = Cert.ReferenceIdeal.Hand.aggMean (F := Ideal) x s d := by
  unfold Cert.KernelIdeal.Hand.aggMean Cert.ReferenceIdeal.Hand.aggMean
  rw [aggSum_eq, denNodes_eq]

/-- The graph means through the linear head are the same vector in both programs. -/
theorem outOf_eq (x : FVec Ideal Cert.KernelIdeal.S50000x128 .f32) (b : IVec Cert.KernelIdeal.S50000 32)
    (W : FVec Ideal Cert.KernelIdeal.S128x1 .f32) (bo : FVec Ideal Cert.KernelIdeal.S1 .f32) :
    Cert.KernelIdeal.Hand.outOf x b W bo = Cert.ReferenceIdeal.Hand.outOf (F := Ideal) x b W bo := by
  unfold Cert.KernelIdeal.Hand.outOf Cert.ReferenceIdeal.Hand.outOf
  rw [poolSum_eq, denGraphs_eq, headOf_eq]

/-- One round of the kernel program is the reference's layer of the features and of their in-edge mean. -/
theorem feat_eq (x : FVec Ideal Cert.KernelIdeal.S50000x128 .f32) (ei : IVec Cert.KernelIdeal.S2x600000 32)
    (Wl : FVec Ideal Cert.KernelIdeal.S128x128 .f32) (bl : FVec Ideal Cert.KernelIdeal.S128 .f32)
    (Wr : FVec Ideal Cert.KernelIdeal.S128x128 .f32) :
    Cert.KernelIdeal.Hand.feat x ei Wl bl Wr
      = Cert.ReferenceIdeal.Hand.layerR (F := Ideal) x
          (Cert.ReferenceIdeal.Hand.aggMean x (Cert.ReferenceIdeal.Hand.srcOf ei) (Cert.ReferenceIdeal.Hand.dstOf ei)) Wl bl Wr := by
  unfold Cert.KernelIdeal.Hand.feat
  rw [srcOf_eq, dstOf_eq, aggMean_eq, layer_eq]

/-- The two networks agree. -/
theorem out_eq (x : FVec Ideal Cert.KernelIdeal.S50000x128 .f32) (ei : IVec Cert.KernelIdeal.S2x600000 32)
    (batch : IVec Cert.KernelIdeal.S50000 32)
    (Wl0 : FVec Ideal Cert.KernelIdeal.S128x128 .f32) (bl0 : FVec Ideal Cert.KernelIdeal.S128 .f32)
    (Wr0 : FVec Ideal Cert.KernelIdeal.S128x128 .f32)
    (Wl1 : FVec Ideal Cert.KernelIdeal.S128x128 .f32) (bl1 : FVec Ideal Cert.KernelIdeal.S128 .f32)
    (Wr1 : FVec Ideal Cert.KernelIdeal.S128x128 .f32)
    (Wl2 : FVec Ideal Cert.KernelIdeal.S128x128 .f32) (bl2 : FVec Ideal Cert.KernelIdeal.S128 .f32)
    (Wr2 : FVec Ideal Cert.KernelIdeal.S128x128 .f32)
    (Wout : FVec Ideal Cert.KernelIdeal.S128x1 .f32) (bout : FVec Ideal Cert.KernelIdeal.S1 .f32) :
    Cert.KernelIdeal.Hand.kerOut x ei batch Wl0 bl0 Wr0 Wl1 bl1 Wr1 Wl2 bl2 Wr2 Wout bout
      = Cert.ReferenceIdeal.Hand.refOut (F := Ideal) x ei batch Wl0 bl0 Wr0 Wl1 bl1 Wr1 Wl2 bl2 Wr2 Wout bout := by
  unfold Cert.KernelIdeal.Hand.kerOut Cert.ReferenceIdeal.Hand.refOut
  rw [feat_eq, feat_eq, feat_eq, outOf_eq]

end Cert.Sage.Bridge
-- ==== Proof.lean ====
/-
  A three-round mean-aggregation graph network on 50000 nodes with 128 features, 600000 directed edges and 500
  graphs, against its plain array-language reference, on the extended reals.

  One round takes the node features x, gathers for every edge the feature row of its source (an index counted from
  the end when negative, the fill value when outside the array), sums the gathered rows over the edges ending at each
  node, divides by the number of those edges (at least one), and puts the quotient a and x itself through
      relu (a · Wl + x · Wr + bl).
  After three rounds the features are summed over the nodes of each graph, divided by the graph's size (at least one),
  and sent through a linear head with one output.

  The kernel program does the gather, the sums and the divisions with host operations and the layer
  relu (a · Wl + x · Wr + bl) with a kernel over blocks of 5000 nodes; it counts the edges into a vector. The reference
  does everything with array operations, adds the bias before the second product, and counts the edges into a
  one-column matrix. The two agree because
    * a layer kernel's output array is, row by row, the layer of its input arrays (each block depends only on its
      own 5000 rows, and the ten blocks tile the array);
    * a one-column accumulating scatter has in row r what the vector scatter has at r: the same updates land there;
    * addition on the extended reals is commutative and associative, so (A + B) + c = (A + c) + B for the two
      products A, B and the bias c, whatever is infinite;
    * every other operation is the same operation of the same operands in both programs.
  No finiteness of the inputs is used.
-/
import proofs.«115632_j11665131176188_1_alg».proof.Defs
import proofs.«115632_j11665131176188_1_alg».proof.Proof.Gen.Kernel
import proofs.«115632_j11665131176188_1_alg».proof.Proof.Gen.Kernel.Frame
import proofs.«115632_j11665131176188_1_alg».proof.Proof.Gen.KernelIdeal
import proofs.«115632_j11665131176188_1_alg».proof.Proof.Gen.KernelIdeal.Frame
import proofs.«115632_j11665131176188_1_alg».proof.Proof.Gen.ReferenceIdeal
import proofs.«115632_j11665131176188_1_alg».proof.Proof.Gen.Pre_finite_inputs
import proofs.«115632_j11665131176188_1_alg».proof.Proof.KerRun
import proofs.«115632_j11665131176188_1_alg».proof.Proof.KerVal
import proofs.«115632_j11665131176188_1_alg».proof.Proof.RefRead
import proofs.«115632_j11665131176188_1_alg».proof.Proof.Bridge
import Idealize.ShloMosaic.Adequacy
import Idealize.ShloMosaic.Init

noncomputable section

namespace Cert.Proof

open Idealize.ShloMosaic Idealize.SL.Sem

/-- The kernel program at the word level runs, and leaves its arguments alone. -/
theorem frame_p : Cert.frame_Kernel := fun m ρ _ => Cert.Kernel.Gen.frame m ρ

/-- The idealized kernel program runs, and leaves its arguments alone. -/
theorem frame_pi : Cert.frame_KernelIdeal := fun m ρ _ => Cert.KernelIdeal.Gen.frame m ρ

/-- The reference runs, and leaves its arguments alone: its run with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories that agree on the fourteen arguments both programs end with the same five hundred outputs: the kernel
    program's result is `kerOut` of its arguments, the reference's is `refOut` of its own, and the two are one function. -/
theorem algebraic : Cert.algebraic_KernelIdeal_ReferenceIdeal := by
  intro m ρ m' ρ' _ hagree
  refine ⟨fun c => Cert.KernelIdeal.Hand.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Hand.W11_val m ρ c), (h c).2⟩)
      (Cert.KernelIdeal.Hand.run_named m ρ)
  · refine (θ_run Cert.ReferenceIdeal.defs _ _).mono (fun _ h c => ⟨(h c).1.trans ?_, (h c).2⟩)
      (Cert.ReferenceIdeal.Hand.run (F := Ideal) m' ρ')
    obtain ⟨h0, h1, h2, h3, h4, h5, h6, h7, h8, h9, h10, h11, h12, h13⟩ := hagree c
    rw [h0, h1, h2, h3, h4, h5, h6, h7, h8, h9, h10, h11, h12, h13]
    exact (Cert.Sage.Bridge.out_eq _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
